-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024x4x4 : Shape := ⟨4, ![1024, 1024, 4, 4]⟩
abbrev S_ : Shape := ⟨0, ![]⟩
abbrev S1024 : Shape := ⟨1, ![1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024x4x4 : S_.BroadcastsInDim S1024x1024x4x4 (![] : Fin 0 → Fin S1024x1024x4x4.rank)
  reducesTo_S1024x1024x4x4_S_d0_1_2_3 : S1024x1024x4x4.ReducesTo [0, 1, 2, 3] S_
  reducesTo_S4096x1024_S1024_d0 : S4096x1024.ReducesTo [0] S1024
  reducesTo_S1024_S_d0 : S1024.ReducesTo [0] S_

variable [Facts]

def fn {F : FTy → Type} [FloatOps F] (main_arg0 : FVec F S4096x1024 .f32) (main_arg1 : FVec F S1024x1024x4x4 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024x4x4 .f32 := Host.absf main_arg1
  let main_cst_0 : FVec F S_ .f32 := constant S_ .f32 0x7F800000#32
  let main_v5 : FVec F S1024x1024x4x4 .f32 := broadcastInDim S1024x1024x4x4 ![] bcast_S_S1024x1024x4x4 main_cst_0
  let main_v6 : IVec S1024x1024x4x4 1 := cmpf .olt main_v4 main_v5
  let main_c_1 : IVec S_ 1 := constantI S_ 1 1#1
  let main_v7 : IVec S_ 1 := (fun x v => Host.reduce IntOp.andi x v reducesTo_S1024x1024x4x4_S_d0_1_2_3 h_S_) main_v6 main_c_1
  let main_v8 : IVec S_ 1 := andi main_v3 main_v7
  let main_cst_2 : FVec F S_ .f32 := constant S_ .f32 0xFF800000#32
  let main_v9 : FVec F S1024 .f32 := (fun x v => Host.reduce FloatOps.maximumf x v reducesTo_S4096x1024_S1024_d0 h_S_) main_arg0 main_cst_2
  let main_cst_3 : FVec F S_ .f32 := constant S_ .f32 0x7F800000#32
  let main_v10 : FVec F S1024 .f32 := (fun x v => Host.reduce FloatOps.minimumf x v reducesTo_S4096x1024_S1024_d0 h_S_) main_arg0 main_cst_3
  let main_v11 : IVec S1024 1 := cmpf .une main_v9 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v8 main_v12
  main_v13
-- ==== Kernel.lean ====
abbrev S4096x1024 : Shape := ⟨2, ![4096, 1024]⟩
abbrev S1024x1024x4x4 : Shape := ⟨4, ![1024, 1024, 4, 4]⟩
abbrev S_ : Shape := ⟨0, ![]⟩
abbrev S1024x1024x4 : Shape := ⟨3, ![1024, 1024, 4]⟩
abbrev S1024x1024x1 : Shape := ⟨3, ![1024, 1024, 1]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1024 : Shape := ⟨2, ![512, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024x4x4, .f32⟩
  | .hbm, ⟨2, _⟩ => ⟨S_, .f32⟩
  | .hbm, ⟨3, _⟩ => ⟨S1024x1024x4, .f32⟩
  | .hbm, ⟨4, _⟩ => ⟨S1024x1024x1, .f32⟩
  | .hbm, ⟨5, _⟩ => ⟨S1024x1024, .f32⟩
  | .hbm, ⟨6, _⟩ => ⟨S1024x1024, .bf16⟩
  | .hbm, ⟨7, _⟩ => ⟨S1024x1024x1, .f32⟩
  | .hbm, ⟨8, _⟩ => ⟨S1024x1024, .f32⟩
  | .hbm, ⟨9, _⟩ => ⟨S1024x1024, .bf16⟩
  | .hbm, ⟨10, _⟩ => ⟨S1024x1024x1, .f32⟩
  | .hbm, ⟨11, _⟩ => ⟨S1024x1024, .f32⟩
  | .hbm, ⟨12, _⟩ => ⟨S1024x1024, .bf16⟩
  | .hbm, ⟨13, _⟩ => ⟨S1024x1024x1, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  reducesTo_S1024x1024x4x4_S1024x1024x4_d2 : S1024x1024x4x4.ReducesTo [2] S1024x1024x4
  h_S_ : 0 < S_.numel
  slices_S1024x1024x4_S1024x1024x1_0_0_0 : S1024x1024x4.Slices ![0, 0, 0] S1024x1024x1
  shapeCasts_S1024x1024x1_S1024x1024 : S1024x1024x1.ShapeCasts S1024x1024
  bitsLt_bf16_f32 : FTy.bits .bf16 < FTy.bits .f32
  slices_S1024x1024x4_S1024x1024x1_0_0_1 : S1024x1024x4.Slices ![0, 0, 1] S1024x1024x1
  slices_S1024x1024x4_S1024x1024x1_0_0_2 : S1024x1024x4.Slices ![0, 0, 2] S1024x1024x1
  slices_S1024x1024x4_S1024x1024x1_0_0_3 : S1024x1024x4.Slices ![0, 0, 3] S1024x1024x1
  reducesTo_S1024x1024_S1024_d1 : S1024x1024.ReducesTo [1] S1024
  shapeCasts_S1024_S1x1024 : S1024.ShapeCasts S1x1024
  inb_S512x512_S512x512_0_0 : ∀ a, (![0, 0] : Fin 2 → Nat) a + S512x512.size a ≤ S512x512.size a
  h_S512x512 : 0 < S512x512.numel
  reduces_S512x512_S512 : S512x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x1024.size a
  hwx0_0 : ∀ i : grid0.Coords, EltTy.bits .f32 = 32 ∨ (Rect.block (s := S4096x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x1024.size a
  hwx0_1 : ∀ i : grid0.Coords, EltTy.bits .f32 = 32 ∨ (Rect.block (s := S1x1024) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S4096x1024.size a
  hwx1_7 : ∀ i : grid1.Coords, EltTy.bits .f32 = 32 ∨ (Rect.block (s := S4096x1024) S512x1024.size (cc1_transform_7 i) (hinb1_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14_0) S1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_1) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024x4x4 : Shape := ⟨4, ![1024, 1024, 4, 4]⟩
abbrev S_ : Shape := ⟨0, ![]⟩
abbrev S1024 : Shape := ⟨1, ![1024]⟩
abbrev S1x1024 : Shape := ⟨2, ![1, 1024]⟩
abbrev S1024x1024x4 : Shape := ⟨3, ![1024, 1024, 4]⟩
abbrev S1024x1024x1 : Shape := ⟨3, ![1024, 1024, 1]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024x4x4, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024x1024x4, .f32⟩
  | .hbm, ⟨15, _⟩ => ⟨S4096x1024, .f32⟩
  | .hbm, ⟨16, _⟩ => ⟨S4096x1024, .f32⟩
  | .hbm, ⟨17, _⟩ => ⟨S1024x1024x1, .f32⟩
  | .hbm, ⟨18, _⟩ => ⟨S1024x1024, .f32⟩
  | .hbm, ⟨19, _⟩ => ⟨S4096x1024, .f32⟩
  | .hbm, ⟨20, _⟩ => ⟨S1024x1024x1, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S1024x1024x1, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S1024x1024x1, .f32⟩
  | .hbm, ⟨29, _⟩ => ⟨S1024x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  reducesTo_S4096x1024_S1024_d0 : S4096x1024.ReducesTo [0] S1024
  h_S_ : 0 < S_.numel
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S1024x1024x4x4_S1024x1024x4_d2 : S1024x1024x4x4.ReducesTo [2] S1024x1024x4
  slices_S1024x1024x4_S1024x1024x1_0_0_0 : S1024x1024x4.Slices ![0, 0, 0] S1024x1024x1
  shapeCasts_S1024x1024x1_S1024x1024 : S1024x1024x1.ShapeCasts S1024x1024
  slices_S1024x1024x4_S1024x1024x1_0_0_1 : S1024x1024x4.Slices ![0, 0, 1] S1024x1024x1
  slices_S1024x1024x4_S1024x1024x1_0_0_2 : S1024x1024x4.Slices ![0, 0, 2] S1024x1024x1
  slices_S1024x1024x4_S1024x1024x1_0_0_3 : S1024x1024x4.Slices ![0, 0, 3] S1024x1024x1
  reducesTo_S1024x1024_S1024_d1 : S1024x1024.ReducesTo [1] S1024
  dot_S4096x1024_S1024x1024_S4096x1024_1_1_0_0_n_n_wf : DotDims.WF S4096x1024 S1024x1024 S4096x1024 [1] [1] [0] [0] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.BitsRegion0.lean ====
/-
  The column min/max region of the kernel as printed: what its body leaves in the two output rows at every grid point,
  and that the body runs, at every point, from the pipeline's hand-over to the pipeline's take-back.
-/
import proofs.«141445_j13228499272146_2_alg».proof.Proof.Gen.Kernel.Launch
import proofs.«141445_j13228499272146_2_alg».proof.Proof.Gen.Kernel.Skeleton
import proofs.«141445_j13228499272146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column min/max region (pipeline 0), at the entry contents `V`

The grid is 2 × 8: coordinate 0 picks a half of the 1024 columns, coordinate 1 a tile of 512 rows.  At a point the
body reduces its 512 × 512 tile of `x` to a row of column minima and a row of column maxima.  At the first row
tile of a half it stores them; at every later tile it stores the minimum (maximum) of what the output rows already
hold and the tile's.  The two output rows are written back once per half, after its last tile. -/

/-- The whole input tile and the whole output row, as rectangles. -/
abbrev rIn : Rect S512x512 := Rect.unit (s := S512x512) ![0, 0] S512x512.size inb_S512x512_S512x512_0_0
abbrev rOut : Rect S1x512 := Rect.unit (s := S1x512) ![0, 0] S1x512.size inb_S1x512_S1x512_0_0

/-- One store of the whole row covers the row. -/
theorem coverOut (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The two branch conditions over the grid -/

/-- "First row tile of the half" holds exactly at the points ≡ 0 (mod 8). -/
theorem hfirst : ∀ t : Fin cfg0.N, k0_cond1 (grid0.coords t) = 1#1 ↔ t.val % 8 = 0 :=
  (by decide +kernel : ∀ t : Fin grid0.N, k0_cond1 (grid0.coords t) = 1#1 ↔ t.val % 8 = 0)
/-- "A later row tile" holds exactly at the other points. -/
theorem hlater : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## What the body leaves in the two output rows -/

/-- At a first tile: the tile's column minima / maxima. -/
def firstMin (x0 : Vec F S512x512 .f32) : Vec F S1x512 .f32 := View.canon [⟨rOut, k0_pay1 (View.ld x0 rIn)⟩]
def firstMax (x0 : Vec F S512x512 .f32) : Vec F S1x512 .f32 := View.canon [⟨rOut, k0_pay2 (View.ld x0 rIn)⟩]
/-- At a later tile: the running row against the tile's. -/
def laterMin (x0 : Vec F S512x512 .f32) (lo : Vec F S1x512 .f32) : Vec F S1x512 .f32 := View.canon [⟨rOut, k0_pay3 (View.ld x0 rIn) (View.ld lo rOut)⟩]
def laterMax (x0 : Vec F S512x512 .f32) (hi : Vec F S1x512 .f32) : Vec F S1x512 .f32 := View.canon [⟨rOut, k0_pay4 (View.ld x0 rIn) (View.ld hi rOut)⟩]

/-! ## The body's triple, case by case -/

set_option maxHeartbeats 1000000 in
/-- At a first tile the body, on whole staging memrefs — the input's at `x0`, the outputs' at anything (it reads them
    and discards what it read) —, leaves the input as it was and the output rows at the tile's minima and maxima. -/
theorem sound_first (c : Dev nD) (E : Set ℕ) (i : grid0.Coords) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (hc1 : k0_cond1 i = 1#1) (hc2 : ¬ k0_cond2 i = 1#1)
    (x0 : Vec F S512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0
            ∗ owns (c : Thread nD τ) arg3 fullShare (firstMin x0)
            ∗ owns (c : Thread nD τ) arg4 fullShare (firstMax x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns firstMin firstMax
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  iexists _; isplitr
  swap; · iexact H2
  ipureintro
  exact View.read_writes_eq_canon _ _ _ (coverOut _)

set_option maxHeartbeats 1000000 in
/-- At a later tile the body, the output rows' memrefs at the running rows `lo`, `hi`, leaves them at the running rows
    against the tile's minima and maxima. -/
theorem sound_later (c : Dev nD) (E : Set ℕ) (i : grid0.Coords) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (hc1 : ¬ k0_cond1 i = 1#1) (hc2 : k0_cond2 i = 1#1)
    (x0 : Vec F S512x512 .f32) (lo hi : Vec F S1x512 .f32) (K : PUnit → sProp 𝕄) :
    iprop(owns (c : Thread nD τ) arg2 fullShare x0 ∗ owns (c : Thread nD τ) arg3 fullShare lo ∗ owns (c : Thread nD τ) arg4 fullShare hi
        ∗ (iprop(owns (c : Thread nD τ) arg2 fullShare x0
            ∗ owns (c : Thread nD τ) arg3 fullShare (laterMin x0 lo)
            ∗ owns (c : Thread nD τ) arg4 fullShare (laterMax x0 hi)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns laterMin laterMax
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  iexists _; isplitr
  swap; · iexact H2
  ipureintro
  exact View.read_writes_eq_canon _ _ _ (coverOut _)

/-! ## The windows' blocks and the running rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING MINIMA.  What the minima row's staging buffer holds after the body at position `n`: at a first tile
    the tile's minima, at a later tile the row the point before left against the tile's minima. -/
def loAt (c : Dev nD) : (n : ℕ) → n < cfg0.N → Vec F S1x512 .f32
  | 0, hn => firstMin (iblk0 V c 0 ⟨0, hn⟩)
  | n + 1, hn =>
    if (n + 1) % 8 = 0 then firstMin (iblk0 V c 0 ⟨n + 1, hn⟩)
    else laterMin (iblk0 V c 0 ⟨n + 1, hn⟩) (loAt c n (Nat.lt_of_succ_lt hn))
/-- THE RUNNING MAXIMA, likewise. -/
def hiAt (c : Dev nD) : (n : ℕ) → n < cfg0.N → Vec F S1x512 .f32
  | 0, hn => firstMax (iblk0 V c 0 ⟨0, hn⟩)
  | n + 1, hn =>
    if (n + 1) % 8 = 0 then firstMax (iblk0 V c 0 ⟨n + 1, hn⟩)
    else laterMax (iblk0 V c 0 ⟨n + 1, hn⟩) (hiAt c n (Nat.lt_of_succ_lt hn))

theorem loAt_first (c : Dev nD) (t : Fin cfg0.N) (h0 : t.val % 8 = 0) : loAt V c t.val t.isLt = firstMin (iblk0 V c 0 t) := by
  obtain ⟨n, hn⟩ := t
  cases n with
  | zero => rfl
  | succ n => exact (if_pos h0).trans rfl
theorem hiAt_first (c : Dev nD) (t : Fin cfg0.N) (h0 : t.val % 8 = 0) : hiAt V c t.val t.isLt = firstMax (iblk0 V c 0 t) := by
  obtain ⟨n, hn⟩ := t
  cases n with
  | zero => rfl
  | succ n => exact (if_pos h0).trans rfl
theorem loAt_later (c : Dev nD) (t : Fin cfg0.N) (h0 : ¬ t.val % 8 = 0) :
    loAt V c t.val t.isLt = laterMin (iblk0 V c 0 t) (loAt V c (t.val - 1) (Nat.lt_of_le_of_lt (Nat.sub_le _ _) t.isLt)) := by
  obtain ⟨n, hn⟩ := t
  cases n with
  | zero => exact absurd (Nat.zero_mod _) h0
  | succ n => exact (if_neg h0).trans rfl
theorem hiAt_later (c : Dev nD) (t : Fin cfg0.N) (h0 : ¬ t.val % 8 = 0) :
    hiAt V c t.val t.isLt = laterMax (iblk0 V c 0 t) (hiAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the min/max pipeline on core `c`: the arrays as the region finds them; after the body at point
    `t` the input's buffer at its block and the two output rows at the running minima and maxima; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => loAt V c t.val t.isLt
    | ⟨2, _⟩ => hiAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = loAt V c t.val t.isLt := by dsimp only [dat0]
theorem after0_2 (c : Dev nD) (t : Fin cfg0.N) : (dat0 V c).after 2 t = hiAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- Every point of the grid is a first tile or a later one: the output rows are stored at every point. -/
theorem live0_1 : ∀ i : grid0.Coords, idle0 1 i = false := by
  intro i; have h := (i 1).isLt; dsimp only [idle0, k0_cond1, k0_cond2]; generalize i 1 = j at h ⊢; revert j; decide
theorem live0_2 : ∀ i : grid0.Coords, idle0 2 i = false := by
  intro i; have h := (i 1).isLt; dsimp only [idle0, k0_cond1, k0_cond2]; generalize i 1 = j at h ⊢; revert j; decide

/-- At a later tile the minima row's buffer holds what the body left at the point before: the row is written back only
    after a half's last tile. -/
theorem before0_1_later (c : Dev nD) (t : Fin cfg0.N) (h0 : ¬ t.val % 8 = 0) (d) :
    (dat0 V c).before 1 t d = loAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (show ∀ i : cfg0.grid.Coords, cfg0.idle 1 i = false from live0_1) (fun _ _ => rfl)]
  dsimp only [dat0]
theorem before0_2_later (c : Dev nD) (t : Fin cfg0.N) (h0 : ¬ t.val % 8 = 0) (d) :
    (dat0 V c).before 2 t d = hiAt V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (show ∀ i : cfg0.grid.Coords, cfg0.idle 2 i = false from live0_2) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; the point is a first tile or a later one; at a later one
    the output rows' memrefs hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [loAt_first V c t h0, hiAt_first V c t h0]
    iintro ⟨HΦ, Ho, ⟨%d0, H0⟩, ⟨%d1, H1⟩, ⟨%d2, H2⟩⟩
    iapply (sound_first c Set.univ (grid0.coords t) _ _ _ _ _ _ ((hfirst t).mpr h0) (fun h => (hlater t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [loAt_later V c t h0, hiAt_later V c t h0]
    simp only [before0_1_later V c t h0, before0_2_later V c t h0]
    iintro ⟨HΦ, Ho, ⟨%d0, H0⟩, ⟨%d1, H1⟩, ⟨%d2, H2⟩⟩
    iapply (sound_later c Set.univ (grid0.coords t) _ _ _ _ _ _ (fun h => h0 ((hfirst t).mp h)) ((hlater t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  have h1 : idle0 1 (grid0.coords t) = false := live0_1 _
  have h2 : idle0 2 (grid0.coords t) = false := live0_2 _
  simp only [h1, h2]
  exact sound_body0 V c t

end Cert.Kernel.Hand

end
-- ==== Proof.BitsRegion1.lean ====
/- Region 1 of the kernel as printed (its second kernel launch: normalise the activations by a guarded
   column range, three contractions against the coefficient tables, add a bias row), at a PARAMETER
   `V`, the TensorCore's buffer contents when the region is entered: each window's block at a grid
   point, what the body leaves in the output window's buffer as a closed function of the seven input
   blocks, the body's triple, the pipeline's proof data and the library's body obligation. The body
   loads every input window's buffer whole, computes one value, and stores it over the whole output
   buffer: what it leaves there is that value, whatever the buffer held before. -/
import proofs.«141445_j13228499272146_2_alg».proof.Proof.Gen.Kernel.Launch
import proofs.«141445_j13228499272146_2_alg».proof.Proof.Gen.Kernel.Skeleton
import proofs.«141445_j13228499272146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at grid point `t`: its array, as the region finds it, read through the block's
    rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, whether the pipeline
    fetched it there or not: where it was not fetched the block index has not moved (a constant index
    map never moves it) and the body left the block in place. Stated for any proof data whose array
    is `V`'s and whose body leaves the block in place, one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rA : Rect S512x1024 := Rect.unit (s := S512x1024) ![0, 0] S512x1024.size inb_S512x1024_S512x1024_0_0
abbrev rB : Rect S1x1024 := Rect.unit (s := S1x1024) ![0, 0] S1x1024.size inb_S1x1024_S1x1024_0_0
abbrev rC : Rect S1024x1024 := Rect.unit (s := S1024x1024) ![0, 0] S1024x1024.size inb_S1024x1024_S1024x1024_0_0

/-! ## What the body leaves in the output window's buffer -/

/-- The output window's buffer after the body, from the seven input blocks: its one store, of the
    body's value at the loaded blocks, laid over the whole buffer. -/
def out1_7 (x0 : Vec F S512x1024 .f32) (x1 x2 : Vec F S1x1024 .f32) (x3 x4 x5 : Vec F S1024x1024 .bf16)
    (x6 : Vec F S1x1024 .f32) : Vec F S512x1024 .f32 :=
  View.canon [⟨rA, k1_pay1 (View.ld x0 rA) (View.ld x1 rB) (View.ld x2 rB) (View.ld x3 rC) (View.ld x4 rC) (View.ld x5 rC) (View.ld x6 rB)⟩]

/-- The one store is of the whole buffer, so it covers it. -/
theorem cover1_7 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The kernel body on whole staging memrefs, the seven inputs' at read contents `x0 … x6` and the
    output's at anything, runs to the continuation holding the inputs' as they were and the output's
    at `out1_7` of the inputs'. -/
theorem sound_kernel1 (c : Dev nD) (E : Set ℕ) (i : grid1.Coords)
    (arg1 : Memref sig .tc .vmem S512x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S512x1024 .f32) (harg8 : arg8.IsWhole)
    (x0 : Vec F S512x1024 .f32) (x1 x2 : Vec F S1x1024 .f32) (x3 x4 x5 : Vec F S1024x1024 .bf16) (x6 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of the region's pipeline on core `c`: the arrays as the region finds them; after
    the body at point `t` each input's buffer at its block and the output's at `out1_7` of the input
    blocks; the invariant that of a body keeping nothing from point to point (the core's other scoped
    buffers and its generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRun.lean ====
/-
  The whole run of the kernel's @main as printed: a stretch of host operations, the column min/max region, the main
  region.  Each region is entered with every unscoped buffer of the core at known contents and left with them at known
  contents — its windows' arrays at what the write-backs fold to, the rest untouched —, so the three compose, and the
  final memory is read off the last boundary: both argument arrays as launched, the result array at the fold of the
  main region's write-backs.
-/
import proofs.«141445_j13228499272146_2_alg».proof.Proof.Gen.Kernel.Launch
import proofs.«141445_j13228499272146_2_alg».proof.Proof.Gen.Kernel.Skeleton
import proofs.«141445_j13228499272146_2_alg».proof.Proof.Gen.Kernel.Points
import proofs.«141445_j13228499272146_2_alg».proof.Proof.Gen.Kernel.Regions
import proofs.«141445_j13228499272146_2_alg».proof.Proof.BitsRegion0
import proofs.«141445_j13228499272146_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main

@main is a stretch of host operations (the coefficient sums, slices and casts), then the column min/max
region, then the main region.  `B0` is the launch memory, `B1` what the host stretch leaves, `B2` and `B3`
what each region leaves: its windows' arrays at what the write-backs fold to, every other buffer untouched. -/

/-- Core `c`'s buffers at launch. -/
abbrev B0 : Dev nD → Valuation τ sig (Elt F) := fun c b => (s₀ m ρ).mem ((c : Dev nD), b)
/-- After the host stretch: the min/max region's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- After the min/max region. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references: the main region's entry. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the main region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### The arguments end as launched -/

/-- The host stretch writes neither argument. -/
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h

/-- `x` is an input window of both regions: each leaves it as it found it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
/-- The coefficient array is no window of either region. -/
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
/-- The result array is the main region's output window. -/
theorem B3_main_v15 (c : Dev nD) : B3 m ρ c (Proc.devRef .tc main_v15) = (dat1 (E2 m ρ) c).arrAt 7 cfg1.N :=
  B3_arr m ρ c 7

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The min/max region: entered with every unscoped buffer at `B1`, left with them at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered with every unscoped buffer at `B2`, left with them at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution of @main terminates, nothing
    faulting, and in every final state each unscoped buffer of every core holds `B3`'s contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m ρ c),
     (h c _ (mem_uc main_arg1 (by decide))).trans (B3_main_arg1 m ρ c)⟩) (run m ρ)

/-- THE RESULT: besides, the result array ends at what the main region's write-backs fold to. -/
theorem run_result : θ_run defs (onTc (τ := τ) (main (F := F))) ⟨m, fun _ => 0, ρ⟩ (fun r => ∀ c : Dev nD,
      r.2.mem ((c.tc : Thread nD τ).loc main_v15) = (dat1 (E2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v15 (by decide))).trans (B3_main_v15 m ρ c),
     (h c _ (mem_uc main_arg0 (by decide))).trans (B3_main_arg0 m ρ c),
     (h c _ (mem_uc main_arg1 (by decide))).trans (B3_main_arg1 m ρ c)⟩) (run m ρ)

end Cert.Kernel.Hand

end
-- ==== Proof.Region0.lean ====
/-
  The column min/max region of the idealized kernel: what its body leaves in the two output rows at every grid point,
  and that the body runs, at every point, from the pipeline's hand-over to the pipeline's take-back.
-/
import proofs.«141445_j13228499272146_2_alg».proof.Proof.Gen.KernelIdeal.Launch
import proofs.«141445_j13228499272146_2_alg».proof.Proof.Gen.KernelIdeal.Skeleton
import proofs.«141445_j13228499272146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column min/max region (pipeline 0), at the entry contents `V`

The grid is 2 × 8: coordinate 0 picks a half of the 1024 columns, coordinate 1 a tile of 512 rows.  At a point the
body reduces its 512 × 512 tile of `x` to a row of column minima and a row of column maxima.  At the first row
tile of a half it stores them; at every later tile it stores the minimum (maximum) of what the output rows already
hold and the tile's.  The two output rows are written back once per half, after its last tile. -/

/-- The whole input tile and the whole output row, as rectangles. -/
abbrev rIn : Rect S512x512 := Rect.unit (s := S512x512) ![0, 0] S512x512.size inb_S512x512_S512x512_0_0
abbrev rOut : Rect S1x512 := Rect.unit (s := S1x512) ![0, 0] S1x512.size inb_S1x512_S1x512_0_0

/-- One store of the whole row covers the row. -/
theorem coverOut (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The two branch conditions over the grid -/

/-- "First row tile of the half" holds exactly at the points ≡ 0 (mod 8). -/
theorem hfirst : ∀ t : Fin cfg0.N, k0_cond1 (grid0.coords t) = 1#1 ↔ t.val % 8 = 0 :=
  (by decide +kernel : ∀ t : Fin grid0.N, k0_cond1 (grid0.coords t) = 1#1 ↔ t.val % 8 = 0)
/-- "A later row tile" holds exactly at the other points. -/
theorem hlater : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## What the body leaves in the two output rows -/

/-- At a first tile: the tile's column minima / maxima. -/
def firstMin (x0 : Vec F S512x512 .f32) : Vec F S1x512 .f32 := View.canon [⟨rOut, k0_pay1 (View.ld x0 rIn)⟩]
def firstMax (x0 : Vec F S512x512 .f32) : Vec F S1x512 .f32 := View.canon [⟨rOut, k0_pay2 (View.ld x0 rIn)⟩]
/-- At a later tile: the running row against the tile's. -/
def laterMin (x0 : Vec F S512x512 .f32) (lo : Vec F S1x512 .f32) : Vec F S1x512 .f32 := View.canon [⟨rOut, k0_pay3 (View.ld x0 rIn) (View.ld lo rOut)⟩]
def laterMax (x0 : Vec F S512x512 .f32) (hi : Vec F S1x512 .f32) : Vec F S1x512 .f32 := View.canon [⟨rOut, k0_pay4 (View.ld x0 rIn) (View.ld hi rOut)⟩]

/-! ## The body's triple, case by case -/

set_option maxHeartbeats 1000000 in
/-- At a first tile the body, on whole staging memrefs — the input's at `x0`, the outputs' at anything (it reads them
    and discards what it read) —, leaves the input as it was and the output rows at the tile's minima and maxima. -/
theorem sound_first (c : Dev nD) (E : Set ℕ) (i : grid0.Coords) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (hc1 : k0_cond1 i = 1#1) (hc2 : ¬ k0_cond2 i = 1#1)
    (x0 : Vec F S512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0
            ∗ owns (c : Thread nD τ) arg3 fullShare (firstMin x0)
            ∗ owns (c : Thread nD τ) arg4 fullShare (firstMax x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns firstMin firstMax
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  iexists _; isplitr
  swap; · iexact H2
  ipureintro
  exact View.read_writes_eq_canon _ _ _ (coverOut _)

set_option maxHeartbeats 1000000 in
/-- At a later tile the body, the output rows' memrefs at the running rows `lo`, `hi`, leaves them at the running rows
    against the tile's minima and maxima. -/
theorem sound_later (c : Dev nD) (E : Set ℕ) (i : grid0.Coords) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (hc1 : ¬ k0_cond1 i = 1#1) (hc2 : k0_cond2 i = 1#1)
    (x0 : Vec F S512x512 .f32) (lo hi : Vec F S1x512 .f32) (K : PUnit → sProp 𝕄) :
    iprop(owns (c : Thread nD τ) arg2 fullShare x0 ∗ owns (c : Thread nD τ) arg3 fullShare lo ∗ owns (c : Thread nD τ) arg4 fullShare hi
        ∗ (iprop(owns (c : Thread nD τ) arg2 fullShare x0
            ∗ owns (c : Thread nD τ) arg3 fullShare (laterMin x0 lo)
            ∗ owns (c : Thread nD τ) arg4 fullShare (laterMax x0 hi)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns laterMin laterMax
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  iexists _; isplitr
  swap; · iexact H2
  ipureintro
  exact View.read_writes_eq_canon _ _ _ (coverOut _)

/-! ## The windows' blocks and the running rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING MINIMA.  What the minima row's staging buffer holds after the body at position `n`: at a first tile
    the tile's minima, at a later tile the row the point before left against the tile's minima. -/
def loAt (c : Dev nD) : (n : ℕ) → n < cfg0.N → Vec F S1x512 .f32
  | 0, hn => firstMin (iblk0 V c 0 ⟨0, hn⟩)
  | n + 1, hn =>
    if (n + 1) % 8 = 0 then firstMin (iblk0 V c 0 ⟨n + 1, hn⟩)
    else laterMin (iblk0 V c 0 ⟨n + 1, hn⟩) (loAt c n (Nat.lt_of_succ_lt hn))
/-- THE RUNNING MAXIMA, likewise. -/
def hiAt (c : Dev nD) : (n : ℕ) → n < cfg0.N → Vec F S1x512 .f32
  | 0, hn => firstMax (iblk0 V c 0 ⟨0, hn⟩)
  | n + 1, hn =>
    if (n + 1) % 8 = 0 then firstMax (iblk0 V c 0 ⟨n + 1, hn⟩)
    else laterMax (iblk0 V c 0 ⟨n + 1, hn⟩) (hiAt c n (Nat.lt_of_succ_lt hn))

theorem loAt_first (c : Dev nD) (t : Fin cfg0.N) (h0 : t.val % 8 = 0) : loAt V c t.val t.isLt = firstMin (iblk0 V c 0 t) := by
  obtain ⟨n, hn⟩ := t
  cases n with
  | zero => rfl
  | succ n => exact (if_pos h0).trans rfl
theorem hiAt_first (c : Dev nD) (t : Fin cfg0.N) (h0 : t.val % 8 = 0) : hiAt V c t.val t.isLt = firstMax (iblk0 V c 0 t) := by
  obtain ⟨n, hn⟩ := t
  cases n with
  | zero => rfl
  | succ n => exact (if_pos h0).trans rfl
theorem loAt_later (c : Dev nD) (t : Fin cfg0.N) (h0 : ¬ t.val % 8 = 0) :
    loAt V c t.val t.isLt = laterMin (iblk0 V c 0 t) (loAt V c (t.val - 1) (Nat.lt_of_le_of_lt (Nat.sub_le _ _) t.isLt)) := by
  obtain ⟨n, hn⟩ := t
  cases n with
  | zero => exact absurd (Nat.zero_mod _) h0
  | succ n => exact (if_neg h0).trans rfl
theorem hiAt_later (c : Dev nD) (t : Fin cfg0.N) (h0 : ¬ t.val % 8 = 0) :
    hiAt V c t.val t.isLt = laterMax (iblk0 V c 0 t) (hiAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the min/max pipeline on core `c`: the arrays as the region finds them; after the body at point
    `t` the input's buffer at its block and the two output rows at the running minima and maxima; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => loAt V c t.val t.isLt
    | ⟨2, _⟩ => hiAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = loAt V c t.val t.isLt := by dsimp only [dat0]
theorem after0_2 (c : Dev nD) (t : Fin cfg0.N) : (dat0 V c).after 2 t = hiAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- Every point of the grid is a first tile or a later one: the output rows are stored at every point. -/
theorem live0_1 : ∀ i : grid0.Coords, idle0 1 i = false := by
  intro i; have h := (i 1).isLt; dsimp only [idle0, k0_cond1, k0_cond2]; generalize i 1 = j at h ⊢; revert j; decide
theorem live0_2 : ∀ i : grid0.Coords, idle0 2 i = false := by
  intro i; have h := (i 1).isLt; dsimp only [idle0, k0_cond1, k0_cond2]; generalize i 1 = j at h ⊢; revert j; decide

/-- At a later tile the minima row's buffer holds what the body left at the point before: the row is written back only
    after a half's last tile. -/
theorem before0_1_later (c : Dev nD) (t : Fin cfg0.N) (h0 : ¬ t.val % 8 = 0) (d) :
    (dat0 V c).before 1 t d = loAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (show ∀ i : cfg0.grid.Coords, cfg0.idle 1 i = false from live0_1) (fun _ _ => rfl)]
  dsimp only [dat0]
theorem before0_2_later (c : Dev nD) (t : Fin cfg0.N) (h0 : ¬ t.val % 8 = 0) (d) :
    (dat0 V c).before 2 t d = hiAt V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (show ∀ i : cfg0.grid.Coords, cfg0.idle 2 i = false from live0_2) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; the point is a first tile or a later one; at a later one
    the output rows' memrefs hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [loAt_first V c t h0, hiAt_first V c t h0]
    iintro ⟨HΦ, Ho, ⟨%d0, H0⟩, ⟨%d1, H1⟩, ⟨%d2, H2⟩⟩
    iapply (sound_first c Set.univ (grid0.coords t) _ _ _ _ _ _ ((hfirst t).mpr h0) (fun h => (hlater t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [loAt_later V c t h0, hiAt_later V c t h0]
    simp only [before0_1_later V c t h0, before0_2_later V c t h0]
    iintro ⟨HΦ, Ho, ⟨%d0, H0⟩, ⟨%d1, H1⟩, ⟨%d2, H2⟩⟩
    iapply (sound_later c Set.univ (grid0.coords t) _ _ _ _ _ _ (fun h => h0 ((hfirst t).mp h)) ((hlater t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  have h1 : idle0 1 (grid0.coords t) = false := live0_1 _
  have h2 : idle0 2 (grid0.coords t) = false := live0_2 _
  simp only [h1, h2]
  exact sound_body0 V c t

end Cert.KernelIdeal.Hand

end
-- ==== Proof.Region1.lean ====
/- Region 1 of the idealized kernel (its second pallas_call: normalise the activations by a guarded
   column range, three contractions against the coefficient tables, add a bias row), at a PARAMETER
   `V`, the TensorCore's buffer contents when the region is entered: each window's block at a grid
   point, what the body leaves in the output window's buffer as a closed function of the seven input
   blocks, the body's triple, the pipeline's proof data and the library's body obligation. The body
   loads every input window's buffer whole, computes one value, and stores it over the whole output
   buffer: what it leaves there is that value, whatever the buffer held before. -/
import proofs.«141445_j13228499272146_2_alg».proof.Proof.Gen.KernelIdeal.Launch
import proofs.«141445_j13228499272146_2_alg».proof.Proof.Gen.KernelIdeal.Skeleton
import proofs.«141445_j13228499272146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at grid point `t`: its array, as the region finds it, read through the block's
    rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, whether the pipeline
    fetched it there or not: where it was not fetched the block index has not moved (a constant index
    map never moves it) and the body left the block in place. Stated for any proof data whose array
    is `V`'s and whose body leaves the block in place, one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rA : Rect S512x1024 := Rect.unit (s := S512x1024) ![0, 0] S512x1024.size inb_S512x1024_S512x1024_0_0
abbrev rB : Rect S1x1024 := Rect.unit (s := S1x1024) ![0, 0] S1x1024.size inb_S1x1024_S1x1024_0_0
abbrev rC : Rect S1024x1024 := Rect.unit (s := S1024x1024) ![0, 0] S1024x1024.size inb_S1024x1024_S1024x1024_0_0

/-! ## What the body leaves in the output window's buffer -/

/-- The output window's buffer after the body, from the seven input blocks: its one store, of the
    body's value at the loaded blocks, laid over the whole buffer. -/
def out1_7 (x0 : Vec F S512x1024 .f32) (x1 x2 : Vec F S1x1024 .f32) (x3 x4 x5 : Vec F S1024x1024 .bf16)
    (x6 : Vec F S1x1024 .f32) : Vec F S512x1024 .f32 :=
  View.canon [⟨rA, k1_pay1 (View.ld x0 rA) (View.ld x1 rB) (View.ld x2 rB) (View.ld x3 rC) (View.ld x4 rC) (View.ld x5 rC) (View.ld x6 rB)⟩]

/-- The one store is of the whole buffer, so it covers it. -/
theorem cover1_7 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The kernel body on whole staging memrefs, the seven inputs' at read contents `x0 … x6` and the
    output's at anything, runs to the continuation holding the inputs' as they were and the output's
    at `out1_7` of the inputs'. -/
theorem sound_kernel1 (c : Dev nD) (E : Set ℕ) (i : grid1.Coords)
    (arg1 : Memref sig .tc .vmem S512x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S512x1024 .f32) (harg8 : arg8.IsWhole)
    (x0 : Vec F S512x1024 .f32) (x1 x2 : Vec F S1x1024 .f32) (x3 x4 x5 : Vec F S1024x1024 .bf16) (x6 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of the region's pipeline on core `c`: the arrays as the region finds them; after
    the body at point `t` each input's buffer at its block and the output's at `out1_7` of the input
    blocks; the invariant that of a body keeping nothing from point to point (the core's other scoped
    buffers and its generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole run of the idealized kernel's @main: a stretch of host operations, the column min/max region, the main
  region.  Each region is entered with every unscoped buffer of the core at known contents and left with them at known
  contents — its windows' arrays at what the write-backs fold to, the rest untouched —, so the three compose, and the
  final memory is read off the last boundary: both argument arrays as launched, the result array at the fold of the
  main region's write-backs.
-/
import proofs.«141445_j13228499272146_2_alg».proof.Proof.Gen.KernelIdeal.Launch
import proofs.«141445_j13228499272146_2_alg».proof.Proof.Gen.KernelIdeal.Skeleton
import proofs.«141445_j13228499272146_2_alg».proof.Proof.Gen.KernelIdeal.Points
import proofs.«141445_j13228499272146_2_alg».proof.Proof.Gen.KernelIdeal.Regions
import proofs.«141445_j13228499272146_2_alg».proof.Proof.Region0
import proofs.«141445_j13228499272146_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main

@main is a stretch of host operations (the coefficient sums, slices and casts), then the column min/max
region, then the main region.  `B0` is the launch memory, `B1` what the host stretch leaves, `B2` and `B3`
what each region leaves: its windows' arrays at what the write-backs fold to, every other buffer untouched. -/

/-- Core `c`'s buffers at launch. -/
abbrev B0 : Dev nD → Valuation τ sig (Elt F) := fun c b => (s₀ m ρ).mem ((c : Dev nD), b)
/-- After the host stretch: the min/max region's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- After the min/max region. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references: the main region's entry. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the main region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### The arguments end as launched -/

/-- The host stretch writes neither argument. -/
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h

/-- `x` is an input window of both regions: each leaves it as it found it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
/-- The coefficient array is no window of either region. -/
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
/-- The result array is the main region's output window. -/
theorem B3_main_v15 (c : Dev nD) : B3 m ρ c (Proc.devRef .tc main_v15) = (dat1 (E2 m ρ) c).arrAt 7 cfg1.N :=
  B3_arr m ρ c 7

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The min/max region: entered with every unscoped buffer at `B1`, left with them at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered with every unscoped buffer at `B2`, left with them at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution of @main terminates, nothing
    faulting, and in every final state each unscoped buffer of every core holds `B3`'s contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m ρ c),
     (h c _ (mem_uc main_arg1 (by decide))).trans (B3_main_arg1 m ρ c)⟩) (run m ρ)

/-- THE RESULT: besides, the result array ends at what the main region's write-backs fold to. -/
theorem run_result : θ_run defs (onTc (τ := τ) (main (F := F))) ⟨m, fun _ => 0, ρ⟩ (fun r => ∀ c : Dev nD,
      r.2.mem ((c.tc : Thread nD τ).loc main_v15) = (dat1 (E2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v15 (by decide))).trans (B3_main_v15 m ρ c),
     (h c _ (mem_uc main_arg0 (by decide))).trans (B3_main_arg0 m ρ c),
     (h c _ (mem_uc main_arg1 (by decide))).trans (B3_main_arg1 m ρ c)⟩) (run m ρ)

end Cert.KernelIdeal.Hand

end
-- ==== Proof.Spec.lean ====
/-
  The mathematics of the kernel, with no program in sight.

  The input `x` is a 4096 × 1024 array of extended reals and `s` a 1024 × 1024 × 4 × 4 array of spline
  coefficients.  Every column `d` of `x` is normalised by its own minimum and maximum over the 4096 rows,
  `u b d = (x b d - min_d) / (max_d - min_d)`, the four spline points of each coefficient are summed,
  `coef o d j = ∑ p, s o d p j`, and the result is the cubic

      out b o = ((∑ d, u³ · coef o d 0  +  ∑ d, u² · coef o d 1)  +  ∑ d, u · coef o d 2)  +  ∑ d, coef o d 3.

  Two spellings of the normalisation occur: the quotient itself (`normQuot`), and the product with a guarded
  reciprocal (`normProd`: the factor is `0` where the column's range is `0`, else `1 / range`).  They agree at every
  column whose range is not zero (`normProd_eq_normQuot`): dividing by a nonzero `δ` IS multiplying by `δ⁻¹`,
  and `1 / δ = 1 · δ⁻¹`.
-/
import Idealize.ShloMosaic.PureOps.Ideal
import Idealize.ShloMosaic.Lib.ValueIdx

noncomputable section

open scoped BigOperators

namespace Cert.SplineSpec

open Idealize.ShloMosaic Idealize.ShloMosaic.ValueIdx

/-- The input array, by index. -/
abbrev XArr : Type := (⟨2, ![4096, 1024]⟩ : Shape).Idx → EReal
/-- The coefficient array, by index. -/
abbrev CArr : Type := (⟨4, ![1024, 1024, 4, 4]⟩ : Shape).Idx → EReal

/-- The least entry of column `d`. -/
def colMin (x : XArr) (d : Fin 1024) : EReal := Finset.univ.inf fun b : Fin 4096 => x (ix2 b d)
/-- The greatest entry of column `d`. -/
def colMax (x : XArr) (d : Fin 1024) : EReal := Finset.univ.sup fun b : Fin 4096 => x (ix2 b d)
/-- The range of column `d`. -/
def colRange (x : XArr) (d : Fin 1024) : EReal := colMax x d - colMin x d

/-- The four spline points of a coefficient, summed. -/
def coef (s : CArr) (o d : Fin 1024) (j : Fin 4) : EReal := ∑ p : Fin 4, s (ix4 o d p j)
/-- The constant term of output feature `o`. -/
def bias (s : CArr) (o : Fin 1024) : EReal := ∑ d : Fin 1024, coef s o d 3

/-- The normalised entry as a quotient. -/
def normQuot (x : XArr) (b : Fin 4096) (d : Fin 1024) : EReal :=
  Ideal.div (x (ix2 b d) - colMin x d) (colRange x d)
/-- The normalised entry as a product with the guarded reciprocal of the range. -/
def normProd (x : XArr) (b : Fin 4096) (d : Fin 1024) : EReal :=
  (x (ix2 b d) - colMin x d) * (if colRange x d = 0 then 0 else Ideal.div 1 (colRange x d))

/-- The cubic in the normalised entries `u`. -/
def cubic (u : Fin 4096 → Fin 1024 → EReal) (s : CArr) (b : Fin 4096) (o : Fin 1024) : EReal :=
  (((∑ d : Fin 1024, (u b d * u b d * u b d) * coef s o d 0) + (∑ d : Fin 1024, (u b d * u b d) * coef s o d 1))
    + (∑ d : Fin 1024, u b d * coef s o d 2)) + bias s o

/-- The whole result array, by index. -/
def result (u : Fin 4096 → Fin 1024 → EReal) (s : CArr) : XArr := fun i => cubic u s (i 0) (i 1)

end Cert.SplineSpec

end
-- ==== Proof.LibColExtrema.lean ====
/-
  Column extrema of a matrix of extended reals, as the host computes them and as a lattice writes them.

  A host `reduce` over the rows (axis 0) of an `m × n` array with a minimum body, started from `+∞`, leaves at
  column `t` the infimum `⨅ k, x (k, t)` over the `m` rows; with a maximum body started from `-∞` it leaves the
  supremum.  Two facts carry this: a reduce over one axis with a commutative, associative body is the fold of that
  body over the axis's coordinates (each result index with the row put back is the pair (row, column)), and a fold of
  `min` from the top element is the infimum (of `max` from the bottom element, the supremum) because both are
  characterised by the same universal property: `c ≤ fold ↔ c ≤ every term`.
  Last, two facts on the extended reals used with these extrema: the difference of two DIFFERENT extended reals is
  never zero (an infinity minus anything, or anything minus an infinity, is an infinity; two different reals differ),
  and the "not equal" comparison answers the bit 1 exactly when its operands differ.
-/
import Idealize.ShloMosaic.Lib.ValueIdx
import Idealize.ShloMosaic.PureOps.Ideal.Laws
import Idealize.ShloMosaic.PureOps.Reduce

noncomputable section

namespace Cert.ColExtrema

open Idealize.ShloMosaic Idealize.ShloMosaic.ValueIdx

/-- A fold of `min` from the top element is the infimum: both are the greatest lower bound of the terms. -/
theorem fold_min_top_eq_inf {ι : Type} (s : Finset ι) (g : ι → EReal) : s.fold min ⊤ g = s.inf g := by
  refine eq_of_forall_le_iff fun c => ?_
  rw [Finset.le_fold_min, Finset.le_inf_iff]
  exact ⟨fun h => h.2, fun h => ⟨le_top, h⟩⟩

/-- A fold of `max` from the bottom element is the supremum: both are the least upper bound of the terms. -/
theorem fold_max_bot_eq_sup {ι : Type} (s : Finset ι) (g : ι → EReal) : s.fold max ⊥ g = s.sup g := by
  refine eq_of_forall_ge_iff fun c => ?_
  rw [Finset.fold_max_le, Finset.sup_le_iff]
  exact ⟨fun h => h.2, fun h => ⟨bot_le, h⟩⟩

/-- The column index `t` with row `k` put back on the reduced axis is the pair (k, t). -/
theorem lift_rows {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The host's reduce over the rows with a minimum body, started from an initial value that is `+∞`, is at column
    `t` the infimum of that column. -/
theorem hostReduce_min_rows {m n : Nat} (x : FVec Ideal ⟨2, ![m, n]⟩ .f32) (init : FVec Ideal ⟨0, ![]⟩ .f32)
    (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel)
    (hinit : init (Shape.Idx.first hu) = ⊤) (t : Fin n) :
    Host.reduce FloatOps.minimumf x init h' hu (ix1 t) = Finset.univ.inf fun k : Fin m => x (ix2 k t) := by
  rw [Host.reduce_eq_fold_single FloatOps.minimumf x init h' h hu, hinit]
  have hf : (x ∘ h.lift (ix1 t)) = fun k : Fin m => x (ix2 k t) := funext fun k => congrArg x (lift_rows h t k)
  refine Eq.trans ?_ (fold_min_top_eq_inf (Finset.univ : Finset (Fin m)) fun k : Fin m => x (ix2 k t))
  exact congrArg (fun f => Finset.fold min (⊤ : EReal) f (Finset.univ : Finset (Fin m))) hf

/-- The host's reduce over the rows with a maximum body, started from an initial value that is `-∞`, is at column
    `t` the supremum of that column. -/
theorem hostReduce_max_rows {m n : Nat} (x : FVec Ideal ⟨2, ![m, n]⟩ .f32) (init : FVec Ideal ⟨0, ![]⟩ .f32)
    (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel)
    (hinit : init (Shape.Idx.first hu) = ⊥) (t : Fin n) :
    Host.reduce FloatOps.maximumf x init h' hu (ix1 t) = Finset.univ.sup fun k : Fin m => x (ix2 k t) := by
  rw [Host.reduce_eq_fold_single FloatOps.maximumf x init h' h hu, hinit]
  have hf : (x ∘ h.lift (ix1 t)) = fun k : Fin m => x (ix2 k t) := funext fun k => congrArg x (lift_rows h t k)
  refine Eq.trans ?_ (fold_max_bot_eq_sup (Finset.univ : Finset (Fin m)) fun k : Fin m => x (ix2 k t))
  exact congrArg (fun f => Finset.fold max (⊥ : EReal) f (Finset.univ : Finset (Fin m))) hf

/-- Dropping the row axis of an `m × n` array leaves its `n` columns. -/
theorem rows_reduces (m n : Nat) : (⟨2, ![m, n]⟩ : Shape).Reduces [0] (⟨1, ![n]⟩ : Shape) :=
  ⟨rfl, Nat.one_pos, fun b => by fin_cases b; rfl⟩

/-- The difference of two different extended reals is not zero: with an infinity on either side the difference is
    an infinity, and two different reals have a nonzero real difference. -/
theorem sub_ne_zero_of_ne (a b : EReal) (h : a ≠ b) : a - b ≠ 0 := by
  induction a using EReal.rec <;> induction b using EReal.rec
  · exact absurd rfl h
  · simp
  · simp
  · simp
  · rename_i r t
    intro h0
    apply h
    have e : ((r - t : ℝ) : EReal) = 0 := by rw [EReal.coe_sub]; exact h0
    have h1 : r - t = 0 := by exact_mod_cast e
    rw [sub_eq_zero.1 h1]
  · simp
  · simp
  · simp
  · exact absurd rfl h

/-- The "not equal" comparison of two extended reals is the bit 1 exactly when they differ. -/
theorem cmp_une_eq_one (a b : EReal) : Ideal.cmp .une a b = 1#1 ↔ a ≠ b := by
  unfold Ideal.cmp
  cases hd : decide (a ≠ b) <;> simp_all

/-- The f32 word of `+∞` denotes the top element. -/
theorem ofBits_pos_inf : Ideal.ofBits .f32 0x7F800000#32 = (⊤ : EReal) := by simp [Ideal.ofBits, Ideal.ieee]

/-- The f32 word of `-∞` denotes the bottom element. -/
theorem ofBits_neg_inf : Ideal.ofBits .f32 0xFF800000#32 = (⊥ : EReal) := by simp [Ideal.ofBits, Ideal.ieee]

end Cert.ColExtrema

end
-- ==== Proof.LibTileExtrema.lean ====
/-
  Column extrema computed tile by tile.

  First, a vector reduction over the rows (axis 0) of an `m × n` tile with a minimum body, from the accumulator
  `+∞`, is at lane `t` the infimum of the tile's column `t`; with a maximum body from `-∞`, the supremum.  (The
  reduction is a fold of `min` over the indices that drop to `t`, those are the pairs (row, t), and a fold of `min`
  from the top element is the infimum.)

  Second, the running extrema.  Cut the 4096 rows of a column `f` into 8 tiles of 512 consecutive rows (row `p` of
  tile `k` is row `512 k + p`); `tileMin f k` is the infimum of tile `k`.  Start from tile 0 and take, tile after tile, the minimum of what has been found so far
  and the next tile's infimum (`runMin`).  After the last tile this is the infimum of the whole column: `c` is a
  lower bound of the running minimum after tile `n` exactly when it is a lower bound of tiles `0 … n`, a lower bound
  of a tile exactly when it bounds each of its 512 entries, and every row `b` lies in tile `b / 512` at place
  `b % 512`.  The same with suprema and maxima.
-/
import proofs.«141445_j13228499272146_2_alg».proof.Proof.LibColExtrema

noncomputable section

namespace Cert.ColExtrema

open Idealize.ShloMosaic Idealize.ShloMosaic.ValueIdx

/-! ## A tile's reduction over its rows -/

/-- A vector `multi_reduction <minimumf>` over the rows of an `m × n` tile, from the accumulator `+∞`, is at lane
    `t` the infimum of column `t` of the tile. -/
theorem multiReduction_min_rows {m n : Nat} (x : FVec Ideal ⟨2, ![m, n]⟩ .f32)
    (h : (⟨2, ![m, n]⟩ : Shape).Reduces [0] (⟨1, ![n]⟩ : Shape)) (hφ : FKind.Formats .f32)
    (hacc : (0x7F800000#32 : BitVec 32) = FKind.minimumf.neutral .f32 hφ) (t : Fin n) :
    multiReduction .minimumf [0] (⟨1, ![n]⟩ : Shape) x 0x7F800000#32 h hφ hacc (ix1 t)
      = Finset.univ.inf fun k : Fin m => x (ix2 k t) := by
  refine ((multiReduction_minimumf_eq_fold x _ h hφ hacc (ix1 t)).trans
    (h.fold_filter_drop_single _ _ x (ix1 t))).trans ?_
  have hf : (x ∘ h.lift (ix1 t)) = fun k : Fin m => x (ix2 k t) := funext fun k => congrArg x (lift_rows h t k)
  refine Eq.trans ?_ (fold_min_top_eq_inf (Finset.univ : Finset (Fin m)) fun k : Fin m => x (ix2 k t))
  rw [← ofBits_pos_inf]
  exact congrArg (fun f => Finset.fold min (Ideal.ofBits .f32 0x7F800000#32) f (Finset.univ : Finset (Fin m))) hf

/-- A vector `multi_reduction <maximumf>` over the rows of an `m × n` tile, from the accumulator `-∞`, is at lane
    `t` the supremum of column `t` of the tile. -/
theorem multiReduction_max_rows {m n : Nat} (x : FVec Ideal ⟨2, ![m, n]⟩ .f32)
    (h : (⟨2, ![m, n]⟩ : Shape).Reduces [0] (⟨1, ![n]⟩ : Shape)) (hφ : FKind.Formats .f32)
    (hacc : (0xFF800000#32 : BitVec 32) = FKind.maximumf.neutral .f32 hφ) (t : Fin n) :
    multiReduction .maximumf [0] (⟨1, ![n]⟩ : Shape) x 0xFF800000#32 h hφ hacc (ix1 t)
      = Finset.univ.sup fun k : Fin m => x (ix2 k t) := by
  refine ((multiReduction_maximumf_eq_fold x _ h hφ hacc (ix1 t)).trans
    (h.fold_filter_drop_single _ _ x (ix1 t))).trans ?_
  have hf : (x ∘ h.lift (ix1 t)) = fun k : Fin m => x (ix2 k t) := funext fun k => congrArg x (lift_rows h t k)
  refine Eq.trans ?_ (fold_max_bot_eq_sup (Finset.univ : Finset (Fin m)) fun k : Fin m => x (ix2 k t))
  rw [← ofBits_neg_inf]
  exact congrArg (fun f => Finset.fold max (Ideal.ofBits .f32 0xFF800000#32) f (Finset.univ : Finset (Fin m))) hf

/-! ## Running extrema over the 8 row tiles of a column of 4096 entries -/

/-- The running minimum: tile 0's value, then the minimum of what was found so far and the next tile's value. -/
def runMin (T : ℕ → EReal) : ℕ → EReal
  | 0 => T 0
  | k + 1 => min (runMin T k) (T (k + 1))

/-- The running maximum: tile 0's value, then the maximum of what was found so far and the next tile's value. -/
def runMax (T : ℕ → EReal) : ℕ → EReal
  | 0 => T 0
  | k + 1 => max (runMax T k) (T (k + 1))

@[simp] theorem runMin_zero (T : ℕ → EReal) : runMin T 0 = T 0 := rfl
@[simp] theorem runMin_succ (T : ℕ → EReal) (k : ℕ) : runMin T (k + 1) = min (runMin T k) (T (k + 1)) := rfl
@[simp] theorem runMax_zero (T : ℕ → EReal) : runMax T 0 = T 0 := rfl
@[simp] theorem runMax_succ (T : ℕ → EReal) (k : ℕ) : runMax T (k + 1) = max (runMax T k) (T (k + 1)) := rfl

/-- A lower bound of the running minimum after tile `n` is a lower bound of every tile up to `n`. -/
theorem le_runMin_iff (T : ℕ → EReal) (n : ℕ) (c : EReal) : c ≤ runMin T n ↔ ∀ k, k ≤ n → c ≤ T k := by
  induction n with
  | zero => exact ⟨fun h k hk => by rw [Nat.le_zero.1 hk]; exact h, fun h => h 0 le_rfl⟩
  | succ n ih =>
    rw [runMin_succ, le_min_iff, ih]
    constructor
    · rintro ⟨h1, h2⟩ k hk
      rcases Nat.le_succ_iff.1 hk with hk | rfl
      · exact h1 k hk
      · exact h2
    · intro h
      exact ⟨fun k hk => h k (Nat.le_succ_of_le hk), h (n + 1) le_rfl⟩

/-- An upper bound of the running maximum after tile `n` is an upper bound of every tile up to `n`. -/
theorem runMax_le_iff (T : ℕ → EReal) (n : ℕ) (c : EReal) : runMax T n ≤ c ↔ ∀ k, k ≤ n → T k ≤ c := by
  induction n with
  | zero => exact ⟨fun h k hk => by rw [Nat.le_zero.1 hk]; exact h, fun h => h 0 le_rfl⟩
  | succ n ih =>
    rw [runMax_succ, max_le_iff, ih]
    constructor
    · rintro ⟨h1, h2⟩ k hk
      rcases Nat.le_succ_iff.1 hk with hk | rfl
      · exact h1 k hk
      · exact h2
    · intro h
      exact ⟨fun k hk => h k (Nat.le_succ_of_le hk), h (n + 1) le_rfl⟩

/-- Entry `p` of tile `k` of the column `f`: row `512 k + p` (past the column's end, the top element, which no
    infimum sees). -/
def rowTileLo (f : Fin 4096 → EReal) (k : ℕ) (p : Fin 512) : EReal :=
  if h : 512 * k + p.val < 4096 then f ⟨512 * k + p.val, h⟩ else ⊤

/-- Entry `p` of tile `k` of the column `f`: row `512 k + p` (past the column's end, the bottom element, which no
    supremum sees). -/
def rowTileHi (f : Fin 4096 → EReal) (k : ℕ) (p : Fin 512) : EReal :=
  if h : 512 * k + p.val < 4096 then f ⟨512 * k + p.val, h⟩ else ⊥

/-- The infimum of tile `k` of the column `f`. -/
def tileMin (f : Fin 4096 → EReal) (k : ℕ) : EReal := Finset.univ.inf (rowTileLo f k)

/-- The supremum of tile `k` of the column `f`. -/
def tileMax (f : Fin 4096 → EReal) (k : ℕ) : EReal := Finset.univ.sup (rowTileHi f k)

/-- Inside the column, entry `p` of tile `k` is the column's row `512 k + p`. -/
theorem rowTileLo_of_lt (f : Fin 4096 → EReal) (k : ℕ) (p : Fin 512) (h : 512 * k + p.val < 4096) :
    rowTileLo f k p = f ⟨512 * k + p.val, h⟩ := dif_pos h

/-- Inside the column, entry `p` of tile `k` is the column's row `512 k + p`. -/
theorem rowTileHi_of_lt (f : Fin 4096 → EReal) (k : ℕ) (p : Fin 512) (h : 512 * k + p.val < 4096) :
    rowTileHi f k p = f ⟨512 * k + p.val, h⟩ := dif_pos h

/-- For one of the 8 tiles, entry `p` is the column's row `512 k + p`, whatever spelling `b` that row has. -/
theorem rowTileLo_of_tile (f : Fin 4096 → EReal) (k : ℕ) (hk : k < 8) (p : Fin 512) (b : Fin 4096)
    (hb : b.val = 512 * k + p.val) : rowTileLo f k p = f b := by
  have hp := p.isLt
  rw [rowTileLo_of_lt f k p (by omega)]
  exact congrArg f (Fin.ext hb.symm)

/-- For one of the 8 tiles, entry `p` is the column's row `512 k + p`, whatever spelling `b` that row has. -/
theorem rowTileHi_of_tile (f : Fin 4096 → EReal) (k : ℕ) (hk : k < 8) (p : Fin 512) (b : Fin 4096)
    (hb : b.val = 512 * k + p.val) : rowTileHi f k p = f b := by
  have hp := p.isLt
  rw [rowTileHi_of_lt f k p (by omega)]
  exact congrArg f (Fin.ext hb.symm)

/-- Tile `k`'s infimum from any family `g` that lists the tile's 512 entries. -/
theorem tileMin_eq (f : Fin 4096 → EReal) (k : ℕ) (g : Fin 512 → EReal) (hg : ∀ p : Fin 512, g p = rowTileLo f k p) :
    Finset.univ.inf g = tileMin f k := by
  rw [tileMin, show g = rowTileLo f k from funext hg]

/-- Tile `k`'s supremum from any family `g` that lists the tile's 512 entries. -/
theorem tileMax_eq (f : Fin 4096 → EReal) (k : ℕ) (g : Fin 512 → EReal) (hg : ∀ p : Fin 512, g p = rowTileHi f k p) :
    Finset.univ.sup g = tileMax f k := by
  rw [tileMax, show g = rowTileHi f k from funext hg]

/-- After the last of the 8 tiles the running minimum is the infimum of the whole column. -/
theorem runMin_tiles (f : Fin 4096 → EReal) : runMin (tileMin f) 7 = Finset.univ.inf f := by
  refine eq_of_forall_le_iff fun c => ?_
  rw [le_runMin_iff, Finset.le_inf_iff]
  constructor
  · intro h b _
    have hb := b.isLt
    have h1 := h (b.val / 512) (by omega)
    rw [tileMin, Finset.le_inf_iff] at h1
    have h2 := h1 ⟨b.val % 512, Nat.mod_lt _ (by decide)⟩ (Finset.mem_univ _)
    rwa [rowTileLo_of_tile f (b.val / 512) (by omega) _ b (by show b.val = 512 * (b.val / 512) + b.val % 512; omega)] at h2
  · intro h k hk
    rw [tileMin, Finset.le_inf_iff]
    intro p _
    have hp := p.isLt
    rw [rowTileLo_of_lt f k p (by omega)]
    exact h _ (Finset.mem_univ _)

/-- After the last of the 8 tiles the running maximum is the supremum of the whole column. -/
theorem runMax_tiles (f : Fin 4096 → EReal) : runMax (tileMax f) 7 = Finset.univ.sup f := by
  refine eq_of_forall_ge_iff fun c => ?_
  rw [runMax_le_iff, Finset.sup_le_iff]
  constructor
  · intro h b _
    have hb := b.isLt
    have h1 := h (b.val / 512) (by omega)
    rw [tileMax, Finset.sup_le_iff] at h1
    have h2 := h1 ⟨b.val % 512, Nat.mod_lt _ (by decide)⟩ (Finset.mem_univ _)
    rwa [rowTileHi_of_tile f (b.val / 512) (by omega) _ b (by show b.val = 512 * (b.val / 512) + b.val % 512; omega)] at h2
  · intro h k hk
    rw [tileMax, Finset.sup_le_iff]
    intro p _
    have hp := p.isLt
    rw [rowTileHi_of_lt f k p (by omega)]
    exact h _ (Finset.mem_univ _)

end Cert.ColExtrema

end
-- ==== Proof.Region0Pay.lean ====
/-
  The first kernel's arithmetic, read at a lane.

  The kernel takes a 512 × 512 tile of the input, reduces it over its rows with a minimum body (from `+∞`) and with
  a maximum body (from `-∞`), and lays each 512-lane result out as one row of shape 1 × 512.  At lane `q` the two
  rows hold the infimum and the supremum of the tile's column `q`.  On every tile but the first it then takes the
  minimum (maximum) of the row found so far and this tile's row, lane by lane.
-/
import proofs.«141445_j13228499272146_2_alg».proof.Proof.Gen.KernelIdeal.Skeleton
import proofs.«141445_j13228499272146_2_alg».proof.Proof.LibTileExtrema
import Idealize.ShloMosaic.Lib.Pipeline.Value

noncomputable section

namespace Cert.KernelIdeal.Hand

open Cert.KernelIdeal Cert.KernelIdeal.Gen Idealize.ShloMosaic Idealize.ShloMosaic.ValueIdx Cert.ColExtrema

/-- A vector of 512 lanes laid out as one row reads, at (0, q), lane `q`. -/
theorem oneRow_apply (z : FVec Ideal S512 .f32) (q : Fin 512) :
    shapeCast S1x512 z shapeCasts_S512_S1x512 (ix2 (0 : Fin 1) q) = z (ix1 q) :=
  (shapeCast_addUnit_apply ![512] z shapeCasts_S512_S1x512 (ix2 (0 : Fin 1) q)).trans
    (congrArg z (funext fun a => by fin_cases a; rfl))

/-- The tile's row of column minima: at lane `q`, the infimum of the tile's column `q`. -/
theorem k0_pay1_apply (x0 : Vec Ideal S512x512 .f32) (q : Fin 512) :
    k0_pay1 (F := Ideal) x0 (ix2 (0 : Fin 1) q) = Finset.univ.inf fun p : Fin 512 => x0 (ix2 p q) := by
  unfold k0_pay1
  refine (oneRow_apply _ q).trans ?_
  exact multiReduction_min_rows x0 reduces_S512x512_S512 (.inl rfl) rfl q

/-- The tile's row of column maxima: at lane `q`, the supremum of the tile's column `q`. -/
theorem k0_pay2_apply (x0 : Vec Ideal S512x512 .f32) (q : Fin 512) :
    k0_pay2 (F := Ideal) x0 (ix2 (0 : Fin 1) q) = Finset.univ.sup fun p : Fin 512 => x0 (ix2 p q) := by
  unfold k0_pay2
  refine (oneRow_apply _ q).trans ?_
  exact multiReduction_max_rows x0 reduces_S512x512_S512 (.inl rfl) rfl q

/-- The running row of minima: lane by lane, the minimum of the row found so far and this tile's row. -/
theorem k0_pay3_apply (x0 : Vec Ideal S512x512 .f32) (lo : Vec Ideal S1x512 .f32) (q : Fin 512) :
    k0_pay3 (F := Ideal) x0 lo (ix2 (0 : Fin 1) q)
      = min (lo (ix2 (0 : Fin 1) q)) (k0_pay1 (F := Ideal) x0 (ix2 (0 : Fin 1) q)) := by
  have e : shapeCast S1x512 lo shapeCasts_S1x512_S1x512 = lo := shapeCast_self lo _
  unfold k0_pay3
  show min ((shapeCast S1x512 lo shapeCasts_S1x512_S1x512) (ix2 (0 : Fin 1) q)) (k0_pay1 (F := Ideal) x0 (ix2 (0 : Fin 1) q)) = _
  rw [e]

/-- The running row of maxima: lane by lane, the maximum of the row found so far and this tile's row. -/
theorem k0_pay4_apply (x0 : Vec Ideal S512x512 .f32) (hi : Vec Ideal S1x512 .f32) (q : Fin 512) :
    k0_pay4 (F := Ideal) x0 hi (ix2 (0 : Fin 1) q)
      = max (hi (ix2 (0 : Fin 1) q)) (k0_pay2 (F := Ideal) x0 (ix2 (0 : Fin 1) q)) := by
  have e : shapeCast S1x512 hi shapeCasts_S1x512_S1x512 = hi := shapeCast_self hi _
  unfold k0_pay4
  show max ((shapeCast S1x512 hi shapeCasts_S1x512_S1x512) (ix2 (0 : Fin 1) q)) (k0_pay2 (F := Ideal) x0 (ix2 (0 : Fin 1) q)) = _
  rw [e]

end Cert.KernelIdeal.Hand

end
-- ==== Proof.Region0Value.lean ====
/-
  What the column min/max region leaves in its two result rows, at the ideal instance: every column's minimum and
  every column's maximum over the 4096 rows.
-/
import proofs.«141445_j13228499272146_2_alg».proof.Proof.Region0
import proofs.«141445_j13228499272146_2_alg».proof.Proof.Spec
import proofs.«141445_j13228499272146_2_alg».proof.Proof.Region0Pay
import proofs.«141445_j13228499272146_2_alg».proof.Proof.LibTileExtrema
import Idealize.ShloMosaic.Lib.Pipeline.Value
import Idealize.ShloMosaic.Lib.ValueIdx

set_option maxRecDepth 16384

noncomputable section

namespace Cert.KernelIdeal.Hand

open Cert.KernelIdeal Cert.KernelIdeal.Gen Cert.ColExtrema Cert.SplineSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the column min/max region leaves in its two result rows

Read at the ideal instance.  The input `x` is `V c main_arg0`.  After the eighth row tile of a half of the columns
the running minima row holds, at column `q` of the half, the minimum of the eight tiles' minima of that column: the
minimum of the whole column.  Each half's row is written back once, so the result row ends holding every column's
minimum; likewise the maxima. -/

theorem hz : (![0, 0] : Fin 2 → Nat) = fun _ => 0 := funext fun a => by fin_cases a <;> rfl

theorem firstMin_eq (x0 : Vec Ideal S512x512 .f32) : firstMin x0 = k0_pay1 x0 := by
  unfold firstMin; rw [View.canon_unit_zero hz]; simp only [View.ld_unit_zero (S := S512x512) hz]
theorem firstMax_eq (x0 : Vec Ideal S512x512 .f32) : firstMax x0 = k0_pay2 x0 := by
  unfold firstMax; rw [View.canon_unit_zero hz]; simp only [View.ld_unit_zero (S := S512x512) hz]
theorem laterMin_eq (x0 : Vec Ideal S512x512 .f32) (lo : Vec Ideal S1x512 .f32) : laterMin x0 lo = k0_pay3 x0 lo := by
  unfold laterMin; rw [View.canon_unit_zero hz]; simp only [View.ld_unit_zero (S := S512x512) hz, View.ld_unit_zero (S := S1x512) hz]
theorem laterMax_eq (x0 : Vec Ideal S512x512 .f32) (hi : Vec Ideal S1x512 .f32) : laterMax x0 hi = k0_pay4 x0 hi := by
  unfold laterMax; rw [View.canon_unit_zero hz]; simp only [View.ld_unit_zero (S := S512x512) hz, View.ld_unit_zero (S := S1x512) hz]

/-- The index maps over the grid: point `t` is row tile `t % 8` of column half `t / 8`. -/
theorem idx0 : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8 :=
  (by decide +kernel : ∀ t : Fin grid0.N, _)

/-- The input window's block at point `t` is rows `512 (t % 8) …` and columns `512 (t / 8) …` of `x`. -/
theorem iblk0_apply (c : Dev nD) (t : Fin cfg0.N) (y : S512x512.Idx) (k : S4096x1024.Idx)
    (hk0 : (k 0).val = 512 * (t.val % 8) + (y 0).val) (hk1 : (k 1).val = 512 * (t.val / 8) + (y 1).val) :
    (iblk0 V c 0 t : Vec Ideal S512x512 .f32) y = (V c main_arg0 : S4096x1024.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 512 + 1 * (y 0).val = (k 0).val; rw [e0, hk0]; omega
  | ⟨1, _⟩ => show win0_0.index t 1 * 512 + 1 * (y 1).val = (k 1).val; rw [e1, hk1]; omega

/-- Column `d` of `x`, as a function of the row. -/
abbrev colOf (c : Dev nD) (d : Fin 1024) : Fin 4096 → EReal := fun b => (V c main_arg0 : S4096x1024.Idx → EReal) (ix2 b d)

/-- The minimum of column `q` of the block at `t` is the minimum of row tile `t % 8` of the column it sits in. -/
theorem tileMin_read (c : Dev nD) (t : Fin cfg0.N) (q : Fin 512) (d : Fin 1024) (hd : d.val = 512 * (t.val / 8) + q.val) :
    (Finset.inf (α := EReal) Finset.univ fun p : Fin 512 => (iblk0 V c 0 t : Vec Ideal S512x512 .f32) (ix2 p q)) = tileMin (colOf V c d) (t.val % 8) := by
  have hN : t.val < 16 := lt_of_lt_of_eq t.isLt (show cfg0.N = 16 from N_0)
  unfold tileMin
  congr 1
  funext p
  have hp : 512 * (t.val % 8) + p.val < 4096 := by have := p.isLt; omega
  unfold rowTileLo
  rw [dif_pos hp]
  exact iblk0_apply V c t (ix2 p q) (ix2 ⟨512 * (t.val % 8) + p.val, hp⟩ d) rfl hd
theorem tileMax_read (c : Dev nD) (t : Fin cfg0.N) (q : Fin 512) (d : Fin 1024) (hd : d.val = 512 * (t.val / 8) + q.val) :
    (Finset.sup (α := EReal) Finset.univ fun p : Fin 512 => (iblk0 V c 0 t : Vec Ideal S512x512 .f32) (ix2 p q)) = tileMax (colOf V c d) (t.val % 8) := by
  have hN : t.val < 16 := lt_of_lt_of_eq t.isLt (show cfg0.N = 16 from N_0)
  unfold tileMax
  congr 1
  funext p
  have hp : 512 * (t.val % 8) + p.val < 4096 := by have := p.isLt; omega
  unfold rowTileHi
  rw [dif_pos hp]
  exact iblk0_apply V c t (ix2 p q) (ix2 ⟨512 * (t.val % 8) + p.val, hp⟩ d) rfl hd

/-- THE RUNNING MINIMUM, READ.  After position `n` the minima row holds at column `q` the minimum over row tiles
    `0 … n % 8` of the column of `x` it stands for. -/
theorem loAt_read (c : Dev nD) : ∀ (n : ℕ) (hn : n < cfg0.N) (q : Fin 512) (d : Fin 1024), d.val = 512 * (n / 8) + q.val →
    (loAt V c n hn : Vec Ideal S1x512 .f32) (ix2 0 q) = runMin (tileMin (colOf V c d)) (n % 8)
  | 0, hn, q, d, hd => by
    show firstMin (iblk0 V c 0 ⟨0, hn⟩) (ix2 0 q) = _
    rw [firstMin_eq, k0_pay1_apply, tileMin_read V c ⟨0, hn⟩ q d hd]
    rfl
  | n + 1, hn, q, d, hd => by
    by_cases h0 : (n + 1) % 8 = 0
    · show (if (n + 1) % 8 = 0 then firstMin (iblk0 V c 0 ⟨n + 1, hn⟩) else _) (ix2 0 q) = _
      rw [if_pos h0, firstMin_eq, k0_pay1_apply, tileMin_read V c ⟨n + 1, hn⟩ q d hd]
      show tileMin _ ((n + 1) % 8) = runMin _ ((n + 1) % 8)
      rw [h0]; rfl
    · show (if (n + 1) % 8 = 0 then _ else laterMin (iblk0 V c 0 ⟨n + 1, hn⟩) (loAt V c n (Nat.lt_of_succ_lt hn))) (ix2 0 q) = _
      rw [if_neg h0, laterMin_eq, k0_pay3_apply, k0_pay1_apply, tileMin_read V c ⟨n + 1, hn⟩ q d hd,
        loAt_read c n (Nat.lt_of_succ_lt hn) q d (by omega)]
      show min (runMin _ (n % 8)) (tileMin _ ((n + 1) % 8)) = runMin _ ((n + 1) % 8)
      rw [show (n + 1) % 8 = n % 8 + 1 from by omega]
      rfl
theorem hiAt_read (c : Dev nD) : ∀ (n : ℕ) (hn : n < cfg0.N) (q : Fin 512) (d : Fin 1024), d.val = 512 * (n / 8) + q.val →
    (hiAt V c n hn : Vec Ideal S1x512 .f32) (ix2 0 q) = runMax (tileMax (colOf V c d)) (n % 8)
  | 0, hn, q, d, hd => by
    show firstMax (iblk0 V c 0 ⟨0, hn⟩) (ix2 0 q) = _
    rw [firstMax_eq, k0_pay2_apply, tileMax_read V c ⟨0, hn⟩ q d hd]
    rfl
  | n + 1, hn, q, d, hd => by
    by_cases h0 : (n + 1) % 8 = 0
    · show (if (n + 1) % 8 = 0 then firstMax (iblk0 V c 0 ⟨n + 1, hn⟩) else _) (ix2 0 q) = _
      rw [if_pos h0, firstMax_eq, k0_pay2_apply, tileMax_read V c ⟨n + 1, hn⟩ q d hd]
      show tileMax _ ((n + 1) % 8) = runMax _ ((n + 1) % 8)
      rw [h0]; rfl
    · show (if (n + 1) % 8 = 0 then _ else laterMax (iblk0 V c 0 ⟨n + 1, hn⟩) (hiAt V c n (Nat.lt_of_succ_lt hn))) (ix2 0 q) = _
      rw [if_neg h0, laterMax_eq, k0_pay4_apply, k0_pay2_apply, tileMax_read V c ⟨n + 1, hn⟩ q d hd,
        hiAt_read c n (Nat.lt_of_succ_lt hn) q d (by omega)]
      show max (runMax _ (n % 8)) (tileMax _ ((n + 1) % 8)) = runMax _ ((n + 1) % 8)
      rw [show (n + 1) % 8 = n % 8 + 1 from by omega]
      rfl

/-! ## The two result rows after the region -/

/-- Every column's minimum, as a 1 × 1024 row. -/
def minRow (c : Dev nD) : S1x1024.Idx → EReal := fun i => colMin (V c main_arg0) (i 1)
/-- Every column's maximum, as a 1 × 1024 row. -/
def maxRow (c : Dev nD) : S1x1024.Idx → EReal := fun i => colMax (V c main_arg0) (i 1)

/-- What a write-back of the minima row writes is its block of `minRow`. -/
theorem flushed0_1_eq (c : Dev nD) (t : Fin cfg0.N) (hf : (cfg0.win 1).flush t = true) :
    (dat0 V c).flushed 1 t = ((cfg0.win 1).blk t).view.read (Elt Ideal) (minRow V c) := by
  have h7 : t.val % 8 = 7 := (flush0_1 t).mp hf
  obtain ⟨-, -, -, e3, -, -⟩ := idx0 t
  show (cfg0.win 1).cut (grid0.coords t) ((dat0 V c).after 1 t) = _
  rw [after0_1]
  funext y
  obtain ⟨p, q, rfl⟩ : ∃ (p : Fin 1) (q : Fin 512), y = ix2 p q := ⟨y 0, y 1, eq_ix2 y⟩
  obtain rfl : p = 0 := Subsingleton.elim _ _
  have hd : ((((cfg0.win 1).blk t).view.emb (ix2 0 q)) 1).val = 512 * (t.val / 8) + q.val := by
    show win0_1.index t 1 * 512 + 1 * q.val = _; rw [e3]; omega
  show (loAt V c t.val t.isLt : Vec Ideal S1x512 .f32) (ix2 0 q) = minRow V c (((cfg0.win 1).blk t).view.emb (ix2 0 q))
  rw [loAt_read V c t.val t.isLt q _ hd, h7, runMin_tiles]
  rfl
theorem flushed0_2_eq (c : Dev nD) (t : Fin cfg0.N) (hf : (cfg0.win 2).flush t = true) :
    (dat0 V c).flushed 2 t = ((cfg0.win 2).blk t).view.read (Elt Ideal) (maxRow V c) := by
  have h7 : t.val % 8 = 7 := (flush0_2 t).mp hf
  obtain ⟨-, -, -, -, -, e5⟩ := idx0 t
  show (cfg0.win 2).cut (grid0.coords t) ((dat0 V c).after 2 t) = _
  rw [after0_2]
  funext y
  obtain ⟨p, q, rfl⟩ : ∃ (p : Fin 1) (q : Fin 512), y = ix2 p q := ⟨y 0, y 1, eq_ix2 y⟩
  obtain rfl : p = 0 := Subsingleton.elim _ _
  have hd : ((((cfg0.win 2).blk t).view.emb (ix2 0 q)) 1).val = 512 * (t.val / 8) + q.val := by
    show win0_2.index t 1 * 512 + 1 * q.val = _; rw [e5]; omega
  show (hiAt V c t.val t.isLt : Vec Ideal S1x512 .f32) (ix2 0 q) = maxRow V c (((cfg0.win 2).blk t).view.emb (ix2 0 q))
  rw [hiAt_read V c t.val t.isLt q _ hd, h7, runMax_tiles]
  rfl

/-- The two write-backs' blocks (after points 7 and 15) cover the row: columns 0–511 and 512–1023. -/
theorem cover0_1 (i : S1x1024.Idx) : ∃ t : Fin cfg0.N, (cfg0.win 1).flush t = true ∧ i ∈ ((cfg0.win 1).blk t).view.set := by
  have h0 : (i 0 : Nat) < 1 := (i 0).isLt
  have h1 : (i 1 : Nat) < 1024 := (i 1).isLt
  by_cases hlt : (i 1 : Nat) < 512
  · refine ⟨t0_7, (flush0_1 t0_7).mpr rfl, ?_⟩
    show i ∈ ((View.whole main_v14_0).slice (win0_1.rect t0_7)).set
    rw [View.set_slice_whole, Rect.mem_set_unit]
    intro a
    match a with
    | ⟨0, _⟩ => show win0_1.index t0_7 0 * win0_1.size 0 ≤ (i 0 : Nat) ∧ (i 0 : Nat) < win0_1.index t0_7 0 * win0_1.size 0 + win0_1.xsize (grid0.coords t0_7) 0
                rw [show win0_1.index t0_7 0 * win0_1.size 0 = 0 from by decide +kernel, show win0_1.xsize (grid0.coords t0_7) 0 = 1 from by decide +kernel]; omega
    | ⟨1, _⟩ => show win0_1.index t0_7 1 * win0_1.size 1 ≤ (i 1 : Nat) ∧ (i 1 : Nat) < win0_1.index t0_7 1 * win0_1.size 1 + win0_1.xsize (grid0.coords t0_7) 1
                rw [show win0_1.index t0_7 1 * win0_1.size 1 = 0 from by decide +kernel, show win0_1.xsize (grid0.coords t0_7) 1 = 512 from by decide +kernel]; omega
  · refine ⟨t0_15, (flush0_1 t0_15).mpr rfl, ?_⟩
    show i ∈ ((View.whole main_v14_0).slice (win0_1.rect t0_15)).set
    rw [View.set_slice_whole, Rect.mem_set_unit]
    intro a
    match a with
    | ⟨0, _⟩ => show win0_1.index t0_15 0 * win0_1.size 0 ≤ (i 0 : Nat) ∧ (i 0 : Nat) < win0_1.index t0_15 0 * win0_1.size 0 + win0_1.xsize (grid0.coords t0_15) 0
                rw [show win0_1.index t0_15 0 * win0_1.size 0 = 0 from by decide +kernel, show win0_1.xsize (grid0.coords t0_15) 0 = 1 from by decide +kernel]; omega
    | ⟨1, _⟩ => show win0_1.index t0_15 1 * win0_1.size 1 ≤ (i 1 : Nat) ∧ (i 1 : Nat) < win0_1.index t0_15 1 * win0_1.size 1 + win0_1.xsize (grid0.coords t0_15) 1
                rw [show win0_1.index t0_15 1 * win0_1.size 1 = 512 from by decide +kernel, show win0_1.xsize (grid0.coords t0_15) 1 = 512 from by decide +kernel]; omega
theorem cover0_2 (i : S1x1024.Idx) : ∃ t : Fin cfg0.N, (cfg0.win 2).flush t = true ∧ i ∈ ((cfg0.win 2).blk t).view.set := by
  have h0 : (i 0 : Nat) < 1 := (i 0).isLt
  have h1 : (i 1 : Nat) < 1024 := (i 1).isLt
  by_cases hlt : (i 1 : Nat) < 512
  · refine ⟨t0_7, (flush0_2 t0_7).mpr rfl, ?_⟩
    show i ∈ ((View.whole main_v14_1).slice (win0_2.rect t0_7)).set
    rw [View.set_slice_whole, Rect.mem_set_unit]
    intro a
    match a with
    | ⟨0, _⟩ => show win0_2.index t0_7 0 * win0_2.size 0 ≤ (i 0 : Nat) ∧ (i 0 : Nat) < win0_2.index t0_7 0 * win0_2.size 0 + win0_2.xsize (grid0.coords t0_7) 0
                rw [show win0_2.index t0_7 0 * win0_2.size 0 = 0 from by decide +kernel, show win0_2.xsize (grid0.coords t0_7) 0 = 1 from by decide +kernel]; omega
    | ⟨1, _⟩ => show win0_2.index t0_7 1 * win0_2.size 1 ≤ (i 1 : Nat) ∧ (i 1 : Nat) < win0_2.index t0_7 1 * win0_2.size 1 + win0_2.xsize (grid0.coords t0_7) 1
                rw [show win0_2.index t0_7 1 * win0_2.size 1 = 0 from by decide +kernel, show win0_2.xsize (grid0.coords t0_7) 1 = 512 from by decide +kernel]; omega
  · refine ⟨t0_15, (flush0_2 t0_15).mpr rfl, ?_⟩
    show i ∈ ((View.whole main_v14_1).slice (win0_2.rect t0_15)).set
    rw [View.set_slice_whole, Rect.mem_set_unit]
    intro a
    match a with
    | ⟨0, _⟩ => show win0_2.index t0_15 0 * win0_2.size 0 ≤ (i 0 : Nat) ∧ (i 0 : Nat) < win0_2.index t0_15 0 * win0_2.size 0 + win0_2.xsize (grid0.coords t0_15) 0
                rw [show win0_2.index t0_15 0 * win0_2.size 0 = 0 from by decide +kernel, show win0_2.xsize (grid0.coords t0_15) 0 = 1 from by decide +kernel]; omega
    | ⟨1, _⟩ => show win0_2.index t0_15 1 * win0_2.size 1 ≤ (i 1 : Nat) ∧ (i 1 : Nat) < win0_2.index t0_15 1 * win0_2.size 1 + win0_2.xsize (grid0.coords t0_15) 1
                rw [show win0_2.index t0_15 1 * win0_2.size 1 = 512 from by decide +kernel, show win0_2.xsize (grid0.coords t0_15) 1 = 512 from by decide +kernel]; omega

/-- After the region the minima row holds every column's minimum, -/
theorem arr0_1 (c : Dev nD) : (dat0 V c).arrAt 1 cfg0.N = minRow V c :=
  (dat0 V c).arrAt_eq_of_cover 1 (minRow V c) (flushed0_1_eq V c) cover0_1
/-- and the maxima row every column's maximum. -/
theorem arr0_2 (c : Dev nD) : (dat0 V c).arrAt 2 cfg0.N = maxRow V c :=
  (dat0 V c).arrAt_eq_of_cover 2 (maxRow V c) (flushed0_2_eq V c) cover0_2

end Cert.KernelIdeal.Hand

end
-- ==== Proof.LibMatmulNT.lean ====
/-
  A matrix product against a transposed right operand, read at one entry, over the extended reals.

  A product of an [A, K] matrix by a [B, K] matrix whose dimension numbers contract the second axis of both operands,
  accumulated into the zero matrix, has at entry (r, j) the value Σ_k lhs[r, k] · rhs[j, k]: row r of the left operand
  against row j of the right one.  Exact arithmetic leaves neither rounding nor a chunk order in it.  The plain product
  (the right operand contracted on its first axis) is `Cert.LibMatmul.plain_matmul_zero_apply`.
-/
import Idealize.ShloMosaic.PureOps.Ideal.Laws
import Idealize.ShloMosaic.Lib.ValueIdx

noncomputable section

namespace Cert.LibMatmulNT

open Idealize.ShloMosaic Idealize.ShloMosaic.ValueIdx

/-- Entry (r, j) of a product into a zero accumulator that contracts both operands' second axes is the sum over that
    axis of the left operand's row r against the right operand's row j. -/
theorem transposedRhs_matmul_zero_apply {A K B : Nat} {φ₁ φ₂ : FTy} (prec : Option ContractPrecision)
    (lhs : FVec Ideal ⟨2, ![A, K]⟩ φ₁) (rhs : FVec Ideal ⟨2, ![B, K]⟩ φ₂) (r : Fin A) (j : Fin B) :
    FloatOps.matmul (DotDims.transposedRhs A K B) prec lhs rhs (constant (F := Ideal) ⟨2, ![A, B]⟩ .f32 0x00000000#32) (ix2 r j)
      = ∑ k : Fin K, lhs (ix2 r k) * rhs (ix2 j k) := by
  rw [Ideal.matmul_constant_zero_apply, ← Equiv.sum_comp (contrEquiv1 (DotDims.transposedRhs A K B) K rfl rfl).symm]
  refine Finset.sum_congr rfl fun k _ => ?_
  have hk := contrEquiv1_symm_val (DotDims.transposedRhs A K B) K rfl rfl k
  have el : (DotDims.transposedRhs A K B).lhsIdx (ix2 r j) ((contrEquiv1 (DotDims.transposedRhs A K B) K rfl rfl).symm k) = ix2 r k :=
    funext fun a => Fin.ext (by
      match a with
      | ⟨0, _⟩ => rfl
      | ⟨1, _⟩ => exact ((DotDims.transposedRhs A K B).lhsIdx_val_of_single rfl (ix2 r j) _).trans hk)
  have er : (DotDims.transposedRhs A K B).rhsIdx (ix2 r j) ((contrEquiv1 (DotDims.transposedRhs A K B) K rfl rfl).symm k) = ix2 j k :=
    funext fun a => Fin.ext (by
      match a with
      | ⟨0, _⟩ => rfl
      | ⟨1, _⟩ => exact ((DotDims.transposedRhs A K B).rhsIdx_val_of_single rfl (ix2 r j) _).trans hk)
  rw [el, er]

end Cert.LibMatmulNT

end
-- ==== Proof.Region1Pay.lean ====
/-
  The value the second stage's body computes, read at one entry, over the extended reals.

  The body normalises its 512 × 1024 block of activations column by column — the distance from the
  column's minimum row times the reciprocal of the range `max - min`, the factor `0` where the range is
  `0` —, contracts the cubes, the squares and the first powers of the normalised block against three
  1024 × 1024 coefficient tables over the column index, adds the three products in that order, and adds
  a constant row.  Exact arithmetic leaves no rounding in the changes of float format, and a product
  into the zero matrix is the plain sum.  So at row `p`, output feature `q` the body's value is

      ((∑ d, u³ · c0 q d  +  ∑ d, u² · c1 q d)  +  ∑ d, u · c2 q d)  +  bias q,     u = u p d.
-/
import proofs.«141445_j13228499272146_2_alg».proof.Proof.Gen.KernelIdeal.Skeleton
import proofs.«141445_j13228499272146_2_alg».proof.Proof.LibMatmulNT
import Idealize.ShloMosaic.Lib.ValueLayout
import Idealize.ShloMosaic.Lib.Pipeline.Value
import Idealize.ShloMosaic.Lib.IdealHost

noncomputable section

open scoped BigOperators

namespace Cert.KernelIdeal.Hand

open Cert.KernelIdeal Cert.KernelIdeal.Gen
open Idealize.ShloMosaic Idealize.ShloMosaic.ValueIdx

/-- The guarded reciprocal as the body spells it — a comparison of the range with zero selecting between
    zero and the quotient `1 / range` — is the conditional. -/
theorem guard_eq (δ : EReal) :
    Scalar.select (Ideal.cmp .oeq δ (Ideal.ofBits .f32 0x00000000#32)) (Ideal.ofBits .f32 0x00000000#32)
        (Ideal.div (Ideal.ofBits .f32 0x3F800000#32) δ)
      = if δ = 0 then 0 else Ideal.div 1 δ := by
  rw [Ideal.ofBits_zero_f32, Ideal.ofBits_one_f32]
  unfold Scalar.select Ideal.cmp
  by_cases h : δ = 0 <;> simp [h]

/-- Entry `(p, d)` of a block `x0` normalised by the row `x1` of column minima and the row `x2` of column
    maxima. -/
def normAt (x0 : FVec Ideal S512x1024 .f32) (x1 x2 : FVec Ideal S1x1024 .f32) (p : Fin 512) (d : Fin 1024) : EReal :=
  (x0 (ix2 p d) - x1 (ix2 0 d))
    * (if x2 (ix2 0 d) - x1 (ix2 0 d) = 0 then 0 else Ideal.div 1 (x2 (ix2 0 d) - x1 (ix2 0 d)))

/-- The normalised block as the body computes it: the block less the broadcast minima, times the broadcast
    guarded reciprocal of the range. -/
def normVec (x0 : FVec Ideal S512x1024 .f32) (x1 x2 : FVec Ideal S1x1024 .f32) : FVec Ideal S512x1024 .f32 :=
  mulf (subf x0 (broadcastTo S512x1024 x1 broadcasts_S1x1024_S512x1024))
    (broadcastTo S512x1024
      (select (cmpf .oeq (subf x2 x1) (broadcast S1x1024 (Scalar.ofBits .f32 0x00000000#32)))
        (broadcast S1x1024 (Scalar.ofBits .f32 0x00000000#32))
        (divf (broadcast S1x1024 (Scalar.ofBits .f32 0x3F800000#32)) (subf x2 x1)))
      broadcasts_S1x1024_S512x1024)

/-- Read at an entry it is `normAt`: a row broadcast down the rows reads the row at the entry's column. -/
theorem normVec_apply (x0 : FVec Ideal S512x1024 .f32) (x1 x2 : FVec Ideal S1x1024 .f32) (p : Fin 512) (d : Fin 1024) :
    normVec x0 x1 x2 (ix2 p d) = normAt x0 x1 x2 p d := by
  unfold normVec normAt
  rw [mulf_apply, subf_apply, broadcastTo_1b_ab_apply, broadcastTo_1b_ab_apply]
  exact congrArg _ (guard_eq _)

/-- A product of a 512 × 1024 block by a 1024 × 1024 table contracting the second axis of both, into the
    zero matrix, at entry `(p, q)`: row `p` of the block against row `q` of the table. -/
theorem matmul1_apply {φ₁ φ₂ : FTy} (lhs : FVec Ideal S512x1024 φ₁) (rhs : FVec Ideal S1024x1024 φ₂) (p : Fin 512) (q : Fin 1024) :
    matmul dot_S512x1024_S1024x1024_S512x1024_1_1_0_0_n_n none lhs rhs (constant (F := Ideal) S512x1024 .f32 0x00000000#32) (ix2 p q)
      = ∑ k : Fin 1024, lhs (ix2 p k) * rhs (ix2 q k) :=
  Cert.LibMatmulNT.transposedRhs_matmul_zero_apply (A := 512) (K := 1024) (B := 1024) none lhs rhs p q

/-- The body's value as the products of the normalised block's powers, the identity casts dropped. -/
theorem pay1_eq (x0 : FVec Ideal S512x1024 .f32) (x1 x2 : FVec Ideal S1x1024 .f32) (x3 x4 x5 : FVec Ideal S1024x1024 .bf16)
    (x6 : FVec Ideal S1x1024 .f32) :
    k1_pay1 (F := Ideal) x0 x1 x2 x3 x4 x5 x6
      = addf (addf (addf
          (matmul dot_S512x1024_S1024x1024_S512x1024_1_1_0_0_n_n none
            (truncf .bf16 (mulf (mulf (normVec x0 x1 x2) (normVec x0 x1 x2)) (normVec x0 x1 x2)) bitsLt_bf16_f32) x3
            (constant (F := Ideal) S512x1024 .f32 0x00000000#32))
          (matmul dot_S512x1024_S1024x1024_S512x1024_1_1_0_0_n_n none
            (truncf .bf16 (mulf (normVec x0 x1 x2) (normVec x0 x1 x2)) bitsLt_bf16_f32) x4
            (constant (F := Ideal) S512x1024 .f32 0x00000000#32)))
          (matmul dot_S512x1024_S1024x1024_S512x1024_1_1_0_0_n_n none
            (truncf .bf16 (normVec x0 x1 x2) bitsLt_bf16_f32) x5
            (constant (F := Ideal) S512x1024 .f32 0x00000000#32)))
          (broadcastTo S512x1024 x6 broadcasts_S1x1024_S512x1024) := by
  unfold k1_pay1 normVec
  simp only [shapeCast_self]

/-- THE BODY'S VALUE AT AN ENTRY. -/
theorem pay1_apply (x0 : FVec Ideal S512x1024 .f32) (x1 x2 : FVec Ideal S1x1024 .f32) (x3 x4 x5 : FVec Ideal S1024x1024 .bf16)
    (x6 : FVec Ideal S1x1024 .f32) (p : Fin 512) (q : Fin 1024) :
    k1_pay1 (F := Ideal) x0 x1 x2 x3 x4 x5 x6 (ix2 p q)
      = (((∑ d : Fin 1024, (normAt x0 x1 x2 p d * normAt x0 x1 x2 p d * normAt x0 x1 x2 p d) * x3 (ix2 q d))
            + (∑ d : Fin 1024, (normAt x0 x1 x2 p d * normAt x0 x1 x2 p d) * x4 (ix2 q d)))
          + (∑ d : Fin 1024, normAt x0 x1 x2 p d * x5 (ix2 q d)))
        + x6 (ix2 0 q) := by
  rw [pay1_eq, addf_apply, addf_apply, addf_apply, matmul1_apply, matmul1_apply, matmul1_apply, broadcastTo_1b_ab_apply]
  simp only [truncf_apply, mulf_apply, normVec_apply]

end Cert.KernelIdeal.Hand

end
-- ==== Proof.SpecKernel.lean ====
/-
  The second stage of the computation as mathematics, with no program in sight: the normalisation of an
  entry by a GIVEN column minimum and maximum (the factor guarded at a zero range), and the cubic in the
  normalised entries against three GIVEN coefficient tables and a GIVEN constant row.  The stage's result
  at row `b` and output feature `o` is

      ((∑ d, u³ · c0 o d  +  ∑ d, u² · c1 o d)  +  ∑ d, u · c2 o d)  +  bs o,      u = u b d,

  where `u b d = (x b d - mn d) · r d` and `r d` is `0` where `mx d - mn d = 0` and `1 / (mx d - mn d)`
  elsewhere.  At `mn = colMin x`, `mx = colMax x` the first is `normProd`; at `c_j = coef s · · j` and
  `bs = bias s` the second is `cubic`.
-/
import proofs.«141445_j13228499272146_2_alg».proof.Proof.Spec

noncomputable section

open scoped BigOperators

namespace Cert.SplineSpec

open Idealize.ShloMosaic Idealize.ShloMosaic.ValueIdx

/-- Entry `(b, d)` normalised by a given minimum `mn d` and maximum `mx d` of its column: the distance
    from the minimum times the reciprocal of the range, the factor `0` where the range is `0`. -/
def guardedNorm (x : XArr) (mn mx : Fin 1024 → EReal) (b : Fin 4096) (d : Fin 1024) : EReal :=
  (x (ix2 b d) - mn d) * (if mx d - mn d = 0 then 0 else Ideal.div 1 (mx d - mn d))

/-- The cubic in the normalised entries `u` against given tables `c0` (cubes), `c1` (squares), `c2`
    (first powers) and a given constant row `bs`. -/
def cubicOf (u : Fin 4096 → Fin 1024 → EReal) (c0 c1 c2 : Fin 1024 → Fin 1024 → EReal) (bs : Fin 1024 → EReal)
    (b : Fin 4096) (o : Fin 1024) : EReal :=
  (((∑ d, (u b d * u b d * u b d) * c0 o d) + (∑ d, (u b d * u b d) * c1 o d)) + (∑ d, u b d * c2 o d)) + bs o

end Cert.SplineSpec

end
-- ==== Proof.Region1Value.lean ====
/-
  What the output array holds after the second stage's region, as ONE function of the arrays the region
  finds: at row `b`, output feature `o`, the cubic of row `b` of the activations normalised by the rows
  of column minima and maxima, against the three coefficient tables and the constant row.

  The grid has 8 points; point `t` works on rows `512 t … 512 t + 511`.  The activations' window and the
  output's window move with the point (block `t` of 8, whole rows); the other six windows hold their whole
  array at every point.  So the block the point writes back is the body's value at the point's row block,
  which is rows `512 t …` of the whole-array function; the 8 row blocks tile the array (row `r` lies in
  block `r / 512`), so the array ends holding that function everywhere.
-/
import proofs.«141445_j13228499272146_2_alg».proof.Proof.Region1
import proofs.«141445_j13228499272146_2_alg».proof.Proof.Region1Pay
import proofs.«141445_j13228499272146_2_alg».proof.Proof.SpecKernel
import Idealize.ShloMosaic.Lib.Pipeline.Value
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer rectangle, however spelt. -/
theorem hz2 : (![0, 0] : Fin 2 → Nat) = fun _ => 0 := funext fun a => by fin_cases a <;> rfl

/-! ## Which block each window is on at a grid point -/

/-- The index maps over the 8 grid points: the activations' and the output's windows are on row block `t`,
    column block 0; every other window is on block (0, 0), its whole array. -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## The input blocks as entries of the arrays -/

/-- Entry `y` of the activations' block at point `t` is entry `(512 t + y₀, y₁)` of the activations. -/
theorem iblk1_0_apply (c : Dev nD) (t : Fin cfg1.N) (y : S512x1024.Idx) (k : S4096x1024.Idx)
    (hk0 : (k 0).val = 512 * t.val + (y 0).val) (hk1 : (k 1).val = (y 1).val) :
    (iblk1 V c 0 t : Vec Ideal S512x1024 .f32) y = (V c main_arg0 : S4096x1024.Idx → EReal) k := by
  obtain ⟨e0, e1, -⟩ := idx_facts1 t
  show V c main_arg0 (((cfg1.win 0).blk t).view.emb y) = V c main_arg0 k
  refine congrArg (V c main_arg0) (funext fun a => Fin.ext ?_)
  match a with
  | ⟨0, _⟩ => show win1_0.index t (0 : Fin 2) * 512 + 1 * (y 0).val = (k 0).val; rw [e0, hk0]; omega
  | ⟨1, _⟩ => show win1_0.index t (1 : Fin 2) * 1024 + 1 * (y 1).val = (k 1).val; rw [e1, hk1]; omega

/-! Each of the other six windows' block, at every point, is its whole array: block (0, 0) of an array one
    block large. -/

theorem iblk1_1_eq (c : Dev nD) (t : Fin cfg1.N) :
    (iblk1 V c 1 t : Vec Ideal S1x1024 .f32) = (V c main_v14_0 : S1x1024.Idx → EReal) := by
  obtain ⟨-, -, -, -, e0, e1, -⟩ := idx_facts1 t
  funext y
  show V c main_v14_0 (((cfg1.win 1).blk t).view.emb y) = V c main_v14_0 y
  refine congrArg (V c main_v14_0) (funext fun a => Fin.ext ?_)
  match a with
  | ⟨0, _⟩ => show win1_1.index t (0 : Fin 2) * 1 + 1 * (y 0).val = (y 0).val; rw [e0]; omega
  | ⟨1, _⟩ => show win1_1.index t (1 : Fin 2) * 1024 + 1 * (y 1).val = (y 1).val; rw [e1]; omega
theorem iblk1_2_eq (c : Dev nD) (t : Fin cfg1.N) :
    (iblk1 V c 2 t : Vec Ideal S1x1024 .f32) = (V c main_v14_1 : S1x1024.Idx → EReal) := by
  obtain ⟨-, -, -, -, -, -, e0, e1, -⟩ := idx_facts1 t
  funext y
  show V c main_v14_1 (((cfg1.win 2).blk t).view.emb y) = V c main_v14_1 y
  refine congrArg (V c main_v14_1) (funext fun a => Fin.ext ?_)
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega
theorem iblk1_3_eq (c : Dev nD) (t : Fin cfg1.N) :
    (iblk1 V c 3 t : Vec Ideal S1024x1024 .bf16) = (V c main_v3 : S1024x1024.Idx → EReal) := by
  obtain ⟨-, -, -, -, -, -, -, -, e0, e1, -⟩ := idx_facts1 t
  funext y
  show V c main_v3 (((cfg1.win 3).blk t).view.emb y) = V c main_v3 y
  refine congrArg (V c main_v3) (funext fun a => Fin.ext ?_)
  match a with
  | ⟨0, _⟩ => show win1_3.index t (0 : Fin 2) * 1024 + 1 * (y 0).val = (y 0).val; rw [e0]; omega
  | ⟨1, _⟩ => show win1_3.index t (1 : Fin 2) * 1024 + 1 * (y 1).val = (y 1).val; rw [e1]; omega
theorem iblk1_4_eq (c : Dev nD) (t : Fin cfg1.N) :
    (iblk1 V c 4 t : Vec Ideal S1024x1024 .bf16) = (V c main_v6 : S1024x1024.Idx → EReal) := by
  obtain ⟨-, -, -, -, -, -, -, -, -, -, e0, e1, -⟩ := idx_facts1 t
  funext y
  show V c main_v6 (((cfg1.win 4).blk t).view.emb y) = V c main_v6 y
  refine congrArg (V c main_v6) (funext fun a => Fin.ext ?_)
  match a with
  | ⟨0, _⟩ => show win1_4.index t (0 : Fin 2) * 1024 + 1 * (y 0).val = (y 0).val; rw [e0]; omega
  | ⟨1, _⟩ => show win1_4.index t (1 : Fin 2) * 1024 + 1 * (y 1).val = (y 1).val; rw [e1]; omega
theorem iblk1_5_eq (c : Dev nD) (t : Fin cfg1.N) :
    (iblk1 V c 5 t : Vec Ideal S1024x1024 .bf16) = (V c main_v9 : S1024x1024.Idx → EReal) := by
  obtain ⟨-, -, -, -, -, -, -, -, -, -, -, -, e0, e1, -⟩ := idx_facts1 t
  funext y
  show V c main_v9 (((cfg1.win 5).blk t).view.emb y) = V c main_v9 y
  refine congrArg (V c main_v9) (funext fun a => Fin.ext ?_)
  match a with
  | ⟨0, _⟩ => show win1_5.index t (0 : Fin 2) * 1024 + 1 * (y 0).val = (y 0).val; rw [e0]; omega
  | ⟨1, _⟩ => show win1_5.index t (1 : Fin 2) * 1024 + 1 * (y 1).val = (y 1).val; rw [e1]; omega
theorem iblk1_6_eq (c : Dev nD) (t : Fin cfg1.N) :
    (iblk1 V c 6 t : Vec Ideal S1x1024 .f32) = (V c main_v13 : S1x1024.Idx → EReal) := by
  obtain ⟨-, -, -, -, -, -, -, -, -, -, -, -, -, -, e0, e1⟩ := idx_facts1 t
  funext y
  show V c main_v13 (((cfg1.win 6).blk t).view.emb y) = V c main_v13 y
  refine congrArg (V c main_v13) (funext fun a => Fin.ext ?_)
  match a with
  | ⟨0, _⟩ => show win1_6.index t (0 : Fin 2) * 1 + 1 * (y 0).val = (y 0).val; rw [e0]; omega
  | ⟨1, _⟩ => show win1_6.index t (1 : Fin 2) * 1024 + 1 * (y 1).val = (y 1).val; rw [e1]; omega

/-! ## The body's value at a point's block, as an entry of the whole-array function -/

/-- With the six whole-array operands in place and the activations' block `x0` holding, in its row `p`,
    row `b` of the activations `X0`, the body's value at `(p, q)` is the cubic at row `b`, feature `q`, of
    `X0` normalised by the minima `X1` and maxima `X2`, against the tables `X3`, `X4`, `X5` and the constant
    row `X6`. -/
theorem blockVal (X0 : S4096x1024.Idx → EReal) (X1 X2 : S1x1024.Idx → EReal) (X3 X4 X5 : S1024x1024.Idx → EReal)
    (X6 : S1x1024.Idx → EReal) (x0 : FVec Ideal S512x1024 .f32) (p : Fin 512) (q : Fin 1024) (b : Fin 4096) (o : Fin 1024)
    (h0 : ∀ d : Fin 1024, x0 (ix2 p d) = X0 (ix2 b d)) (ho : o = q) :
    k1_pay1 (F := Ideal) x0 X1 X2 X3 X4 X5 X6 (ix2 p q)
      = Cert.SplineSpec.cubicOf (Cert.SplineSpec.guardedNorm X0 (fun d => X1 (ix2 0 d)) (fun d => X2 (ix2 0 d)))
          (fun o d => X3 (ix2 o d)) (fun o d => X4 (ix2 o d)) (fun o d => X5 (ix2 o d)) (fun o => X6 (ix2 0 o)) b o := by
  subst ho
  rw [pay1_apply]
  unfold Cert.SplineSpec.cubicOf Cert.SplineSpec.guardedNorm normAt
  simp only [h0]

/-- The whole-array function: entry `(b, o)` is the cubic at row `b`, feature `o`, of the activations
    normalised by the two rows of column extrema, against the three tables and the constant row, all as
    the region finds them. -/
abbrev arrG (c : Dev nD) : S4096x1024.Idx → EReal := fun i =>
  Cert.SplineSpec.cubicOf
    (Cert.SplineSpec.guardedNorm (V c main_arg0) (fun d => V c main_v14_0 (ix2 0 d)) (fun d => V c main_v14_1 (ix2 0 d)))
    (fun o d => V c main_v3 (ix2 o d)) (fun o d => V c main_v6 (ix2 o d)) (fun o d => V c main_v9 (ix2 o d))
    (fun o => V c main_v13 (ix2 0 o)) (i 0) (i 1)

/-- WHAT POINT `t` WRITES BACK is block `t` of the whole-array function: the body's one store leaves its
    value over the whole buffer, the value's operands are the blocks above, and entry `(p, q)` of the
    output's block is entry `(512 t + p, q)` of the array. -/
theorem flushed1_7_eq (c : Dev nD) (t : Fin cfg1.N) :
    (dat1 V c).flushed 7 t = ((cfg1.win 7).blk t).view.read (Elt Ideal) (arrG V c) := by
  show (cfg1.win 7).cut (grid1.coords t) ((dat1 V c).after 7 t) = _
  rw [after1_7]
  unfold out1_7
  rw [View.canon_unit_zero hz2]
  simp only [View.ld_unit_zero (S := S512x1024) hz2, View.ld_unit_zero (S := S1x1024) hz2, View.ld_unit_zero (S := S1024x1024) hz2]
  rw [iblk1_1_eq, iblk1_2_eq, iblk1_3_eq, iblk1_4_eq, iblk1_5_eq, iblk1_6_eq]
  obtain ⟨-, -, e0, e1, -⟩ := idx_facts1 t
  funext j
  obtain ⟨p, q, rfl⟩ : ∃ (p : Fin 512) (q : Fin 1024), j = ix2 p q := ⟨j 0, j 1, eq_ix2 j⟩
  show k1_pay1 (F := Ideal) (iblk1 V c 0 t) (V c main_v14_0) (V c main_v14_1) (V c main_v3) (V c main_v6) (V c main_v9) (V c main_v13) (ix2 p q)
      = arrG V c (((cfg1.win 7).blk t).view.emb (ix2 p q))
  refine blockVal (V c main_arg0) (V c main_v14_0) (V c main_v14_1) (V c main_v3) (V c main_v6) (V c main_v9) (V c main_v13)
    (iblk1 V c 0 t) p q ((((cfg1.win 7).blk t).view.emb (ix2 p q)) 0) ((((cfg1.win 7).blk t).view.emb (ix2 p q)) 1) (fun d => ?_) ?_
  · refine iblk1_0_apply V c t (ix2 p d) _ ?_ rfl
    show win1_7.index t (0 : Fin 2) * 512 + 1 * p.val = 512 * t.val + p.val
    rw [e0]; omega
  · refine Fin.ext ?_
    show win1_7.index t (1 : Fin 2) * 1024 + 1 * q.val = q.val
    rw [e1]; omega

/-! ## The row blocks tile the array -/

/-- An entry of the array is in point `t`'s block iff each coordinate is in the block's range on its axis. -/
theorem mem_blk1_7 (t : Fin cfg1.N) (i : S4096x1024.Idx) :
    i ∈ ((cfg1.win 7).blk t).view.set ↔ ∀ a : Fin 2, win1_7.index t a * S512x1024.size a ≤ (i a).val
      ∧ (i a).val < win1_7.index t a * S512x1024.size a + S512x1024.size a := by
  show i ∈ ((View.whole main_v15).slice (win1_7.rect t)).set ↔ _
  rw [View.set_slice_whole, Rect.mem_set_unit]
  exact Iff.rfl

/-- Every entry is in the block of the point its row belongs to: row `r` in block `r / 512`. -/
theorem cover1_7_arr (i : S4096x1024.Idx) :
    ∃ t : Fin cfg1.N, (cfg1.win 7).flush t = true ∧ i ∈ ((cfg1.win 7).blk t).view.set := by
  have hi0 : (i 0).val < 4096 := (i 0).isLt
  have hi1 : (i 1).val < 1024 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, e0, e1, -⟩ := idx_facts1 t
  refine ⟨t, flush1_7 t, ?_⟩
  rw [mem_blk1_7]
  intro a
  match a with
  | ⟨0, _⟩ =>
    show win1_7.index t (0 : Fin 2) * 512 ≤ (i 0).val ∧ (i 0).val < win1_7.index t (0 : Fin 2) * 512 + 512
    rw [e0, ht]; omega
  | ⟨1, _⟩ =>
    show win1_7.index t (1 : Fin 2) * 1024 ≤ (i 1).val ∧ (i 1).val < win1_7.index t (1 : Fin 2) * 1024 + 1024
    rw [e1]; omega

/-! ## The array after the region -/

/-- THE OUTPUT ARRAY after the region's last point: the cubic of the normalised activations, entry by
    entry, of the arrays as the region finds them. -/
theorem arr1_7 (c : Dev nD) : (dat1 (F := Ideal) V c).arrAt 7 cfg1.N = fun i =>
    Cert.SplineSpec.cubicOf
      (Cert.SplineSpec.guardedNorm (V c main_arg0) (fun d => V c main_v14_0 (ix2 0 d)) (fun d => V c main_v14_1 (ix2 0 d)))
      (fun o d => V c main_v3 (ix2 o d)) (fun o d => V c main_v6 (ix2 o d)) (fun o d => V c main_v9 (ix2 o d))
      (fun o => V c main_v13 (ix2 0 o)) (i 0) (i 1) :=
  (dat1 V c).arrAt_eq_of_cover 7 (arrG V c) (fun t _ => flushed1_7_eq V c t) (cover1_7_arr)

end Cert.KernelIdeal.Hand

end
-- ==== Proof.RefCoef.lean ====
/-
  The reference's coefficient matrices and its constant term, read at an index.

  The reference sums the 1024 × 1024 × 4 × 4 coefficient array over its spline-point axis (from the constant 0), cuts
  the four slices `j = 0, 1, 2, 3` of the last axis and reshapes each to a 1024 × 1024 matrix: entry (o, d) of slice
  `j` is `∑ p, s (o, d, p, j)`, the specification's `coef s o d j`.  The last slice is summed over `d` (again from the
  constant 0): entry `o` of that vector is the specification's constant term `bias s o`.
-/
import proofs.«141445_j13228499272146_2_alg».proof.Proof.Gen.ReferenceIdeal.Read
import proofs.«141445_j13228499272146_2_alg».proof.Proof.Spec

noncomputable section

namespace Cert.RefValue

open Cert.ReferenceIdeal Cert.ReferenceIdeal.Gen Cert.ReferenceIdeal.Read Idealize.ShloMosaic Idealize.ShloMosaic.ValueIdx
open Cert.SplineSpec

/-- The sum over the spline points, read at (o, d, j): the initial value is the zero word. -/
theorem pointSum_read (s : (⟨S1024x1024x4x4, .f32⟩ : BufTy).Contents (Elt Ideal)) (o d : Fin 1024) (j : Fin 4) :
    val_main_v9 (F := Ideal) s (ix3 o d j) = coef s o d j := by
  have e : ∀ k : Fin 4, idx_main_v9 (ix3 o d j) k = ix4 o d k j := fun k =>
    funext fun a => Fin.ext (by match a with | ⟨0, _⟩ => rfl | ⟨1, _⟩ => rfl | ⟨2, _⟩ => rfl | ⟨3, _⟩ => rfl)
  rw [val_main_v9_apply, val_main_cst_1_apply, Ideal.ofBits_def, Ideal.ofBits_zero_f32, zero_add]
  unfold coef
  exact Finset.sum_congr rfl fun k _ => congrArg s (e k)

/-- Entry (o, d) of a reshaped slice sits at (o, d, 0) of the slice. -/
theorem reshape_idx (o d : Fin 1024) : idx_main_v13 (ix2 o d) = ix3 o d (0 : Fin 1) := by
  have ho := o.isLt; have hd := d.isLt
  funext a; apply Fin.ext
  match a with
  | ⟨0, _⟩ => show (o.val * 1024 + d.val) / 1024 = o.val; omega
  | ⟨1, _⟩ => show (o.val * 1024 + d.val) / 1 % 1024 = d.val; omega
  | ⟨2, _⟩ => rfl

/-- Slice `j = 0`, reshaped, at (o, d). -/
theorem coef0_read (s : (⟨S1024x1024x4x4, .f32⟩ : BufTy).Contents (Elt Ideal)) (o d : Fin 1024) :
    val_main_v13 (F := Ideal) s (ix2 o d) = coef s o d 0 := by
  have e : idx_main_v12 (ix3 o d (0 : Fin 1)) = ix3 o d (0 : Fin 4) :=
    funext fun a => Fin.ext (by match a with | ⟨0, _⟩ => rfl | ⟨1, _⟩ => rfl | ⟨2, _⟩ => rfl)
  rw [val_main_v13_apply, val_main_v12_apply, reshape_idx, e, pointSum_read]

/-- Slice `j = 1`, reshaped, at (o, d). -/
theorem coef1_read (s : (⟨S1024x1024x4x4, .f32⟩ : BufTy).Contents (Elt Ideal)) (o d : Fin 1024) :
    val_main_v16 (F := Ideal) s (ix2 o d) = coef s o d 1 := by
  have e : idx_main_v15 (ix3 o d (0 : Fin 1)) = ix3 o d (1 : Fin 4) :=
    funext fun a => Fin.ext (by match a with | ⟨0, _⟩ => rfl | ⟨1, _⟩ => rfl | ⟨2, _⟩ => rfl)
  rw [val_main_v16_apply, val_main_v15_apply, show idx_main_v16 (ix2 o d) = ix3 o d (0 : Fin 1) from reshape_idx o d, e,
    pointSum_read]

/-- Slice `j = 2`, reshaped, at (o, d). -/
theorem coef2_read (s : (⟨S1024x1024x4x4, .f32⟩ : BufTy).Contents (Elt Ideal)) (o d : Fin 1024) :
    val_main_v20 (F := Ideal) s (ix2 o d) = coef s o d 2 := by
  have e : idx_main_v19 (ix3 o d (0 : Fin 1)) = ix3 o d (2 : Fin 4) :=
    funext fun a => Fin.ext (by match a with | ⟨0, _⟩ => rfl | ⟨1, _⟩ => rfl | ⟨2, _⟩ => rfl)
  rw [val_main_v20_apply, val_main_v19_apply, show idx_main_v20 (ix2 o d) = ix3 o d (0 : Fin 1) from reshape_idx o d, e,
    pointSum_read]

/-- Slice `j = 3`, reshaped, at (o, d). -/
theorem coef3_read (s : (⟨S1024x1024x4x4, .f32⟩ : BufTy).Contents (Elt Ideal)) (o d : Fin 1024) :
    val_main_v24 (F := Ideal) s (ix2 o d) = coef s o d 3 := by
  have e : idx_main_v23 (ix3 o d (0 : Fin 1)) = ix3 o d (3 : Fin 4) :=
    funext fun a => Fin.ext (by match a with | ⟨0, _⟩ => rfl | ⟨1, _⟩ => rfl | ⟨2, _⟩ => rfl)
  rw [val_main_v24_apply, val_main_v23_apply, show idx_main_v24 (ix2 o d) = ix3 o d (0 : Fin 1) from reshape_idx o d, e,
    pointSum_read]

/-- The last slice summed over `d`, at `o`: the constant term. -/
theorem bias_read (s : (⟨S1024x1024x4x4, .f32⟩ : BufTy).Contents (Elt Ideal)) (o : Fin 1024) :
    val_main_v25 (F := Ideal) s (ix1 o) = bias s o := by
  have e : ∀ k : Fin 1024, idx_main_v25 (ix1 o) k = ix2 o k := fun k =>
    funext fun a => Fin.ext (by match a with | ⟨0, _⟩ => rfl | ⟨1, _⟩ => rfl)
  rw [val_main_v25_apply, val_main_cst_2_apply, Ideal.ofBits_def, Ideal.ofBits_zero_f32, zero_add]
  unfold bias
  exact Finset.sum_congr rfl fun k _ => by rw [e k, coef3_read]

end Cert.RefValue

end
-- ==== Proof.KernelHost.lean ====
/-
  What the kernel program's host stretch leaves in its buffers, read at an index.

  Before its two regions the program sums the coefficient array over the spline-point axis, cuts the four slices of
  the last axis, reshapes each to a 1024 × 1024 matrix and (a change of format, the identity on extended reals) hands
  the first three to the main region: entry (o, d) of the `j`-th is `∑ p, s (o, d, p, j)`.  The fourth it sums over
  `d` and lays out as one row: entry (0, o) is the constant term `∑ d, ∑ p, s (o, d, p, 3)`.  These are operation for
  operation the reference's own coefficient sums, so each reading is the reference's.  The input array is not
  written by the stretch.
-/
import proofs.«141445_j13228499272146_2_alg».proof.Proof.Run
import proofs.«141445_j13228499272146_2_alg».proof.Proof.RefCoef
import Idealize.ShloMosaic.PureOps.Ideal
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first coefficient matrix after the host stretch: entry (o, d) is `coef o d 0`. -/
theorem host_c0 (c : Dev nD) (o d : Fin 1024) :
    (B1 m ρ c (Proc.devRef .tc main_v3) : S1024x1024.Idx → EReal) (ix2 o d)
      = Cert.SplineSpec.coef (m ((c : Thread nD τ).loc main_arg1)) o d 0 := by
  dsimp only [B1, B0, hostOps0]
  after_results
  exact Cert.RefValue.coef0_read (m ((c : Thread nD τ).loc main_arg1)) o d

/-- The second coefficient matrix after the host stretch: entry (o, d) is `coef o d 1`. -/
theorem host_c1 (c : Dev nD) (o d : Fin 1024) :
    (B1 m ρ c (Proc.devRef .tc main_v6) : S1024x1024.Idx → EReal) (ix2 o d)
      = Cert.SplineSpec.coef (m ((c : Thread nD τ).loc main_arg1)) o d 1 := by
  dsimp only [B1, B0, hostOps0]
  after_results
  exact Cert.RefValue.coef1_read (m ((c : Thread nD τ).loc main_arg1)) o d

/-- The third coefficient matrix after the host stretch: entry (o, d) is `coef o d 2`. -/
theorem host_c2 (c : Dev nD) (o d : Fin 1024) :
    (B1 m ρ c (Proc.devRef .tc main_v9) : S1024x1024.Idx → EReal) (ix2 o d)
      = Cert.SplineSpec.coef (m ((c : Thread nD τ).loc main_arg1)) o d 2 := by
  dsimp only [B1, B0, hostOps0]
  after_results
  exact Cert.RefValue.coef2_read (m ((c : Thread nD τ).loc main_arg1)) o d

/-- The row of constant terms after the host stretch: entry (0, o) is `bias o`. -/
theorem host_bias (c : Dev nD) (o : Fin 1024) :
    (B1 m ρ c (Proc.devRef .tc main_v13) : S1x1024.Idx → EReal) (ix2 (0 : Fin 1) o)
      = Cert.SplineSpec.bias (m ((c : Thread nD τ).loc main_arg1)) o := by
  dsimp only [B1, B0, hostOps0]
  after_results
  have key : ∀ z : FVec Ideal S1024 .f32,
      shapeCast S1x1024 z shapeCasts_S1024_S1x1024 (ix2 (0 : Fin 1) o) = z (ix1 o) := fun z =>
    (shapeCast_addUnit_apply ![1024] z shapeCasts_S1024_S1x1024 (ix2 (0 : Fin 1) o)).trans
      (congrArg z (funext fun a => by fin_cases a; rfl))
  refine (key _).trans ?_
  exact Cert.RefValue.bias_read (m ((c : Thread nD τ).loc main_arg1)) o

/-- The host stretch leaves the input array as launched. -/
theorem host_x (c : Dev nD) : B1 m ρ c (Proc.devRef .tc main_arg0) = m ((c : Thread nD τ).loc main_arg0) :=
  B1_of m ρ c main_arg0 (by decide)

end Cert.KernelIdeal.Hand

end
-- ==== Proof.KernelValue.lean ====
/-
  The idealized kernel's result array as one function of its two arguments: the cubic of the columns normalised by
  the product with the guarded reciprocal of the column's range.
-/
import proofs.«141445_j13228499272146_2_alg».proof.Proof.Run
import proofs.«141445_j13228499272146_2_alg».proof.Proof.Region0Value
import proofs.«141445_j13228499272146_2_alg».proof.Proof.Region1Value
import proofs.«141445_j13228499272146_2_alg».proof.Proof.KernelHost
import proofs.«141445_j13228499272146_2_alg».proof.Proof.Spec
import proofs.«141445_j13228499272146_2_alg».proof.Proof.SpecKernel

set_option maxRecDepth 16384

noncomputable section

namespace Cert.KernelIdeal.Hand

open Cert.KernelIdeal Cert.KernelIdeal.Gen Cert.SplineSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! # The idealized kernel's result array, as one function of its two arguments

The main region is entered with `x` as launched, the two rows the min/max region left (every column's minimum and
maximum), and the four arrays the host stretch computed from the coefficients (the three cubic coefficient matrices
and the row of constant terms).  Its result is then the cubic of the columns normalised by the product with the
guarded reciprocal of the range: `result (normProd x) s`. -/

/-- The input as launched. -/
abbrev xOf (c : Dev nD) : XArr := m ((c : Thread nD τ).loc main_arg0)
/-- The coefficients as launched. -/
abbrev sOf (c : Dev nD) : CArr := m ((c : Thread nD τ).loc main_arg1)

theorem E1_x (c : Dev nD) : E1 m ρ c main_arg0 = m ((c : Thread nD τ).loc main_arg0) :=
  B1_of m ρ c main_arg0 (by decide)
theorem E2_x (c : Dev nD) : E2 m ρ c main_arg0 = m ((c : Thread nD τ).loc main_arg0) :=
  (B2_arr m ρ c 0).trans (((dat0 (E1 m ρ) c).arrAt_in 0 rfl _).trans ((A_eq0 (E1 m ρ) c 0).trans (E1_x m ρ c)))
theorem E2_min (c : Dev nD) : (E2 m ρ c main_v14_0 : S1x1024.Idx → EReal) = fun i => colMin (xOf m c) (i 1) := by
  refine (B2_arr m ρ c 1).trans ((arr0_1 (E1 m ρ) c).trans ?_)
  unfold minRow; rw [E1_x]; rfl
theorem E2_max (c : Dev nD) : (E2 m ρ c main_v14_1 : S1x1024.Idx → EReal) = fun i => colMax (xOf m c) (i 1) := by
  refine (B2_arr m ρ c 2).trans ((arr0_2 (E1 m ρ) c).trans ?_)
  unfold maxRow; rw [E1_x]; rfl
theorem E2_c0 (c : Dev nD) (o d : Fin 1024) : (E2 m ρ c main_v3 : S1024x1024.Idx → EReal) (ix2 o d) = coef (sOf m c) o d 0 := by
  rw [show E2 m ρ c main_v3 = B1 m ρ c (Proc.devRef .tc main_v3) from B2_of_ne m ρ c main_v3 (by decide)]
  exact host_c0 m ρ c o d
theorem E2_c1 (c : Dev nD) (o d : Fin 1024) : (E2 m ρ c main_v6 : S1024x1024.Idx → EReal) (ix2 o d) = coef (sOf m c) o d 1 := by
  rw [show E2 m ρ c main_v6 = B1 m ρ c (Proc.devRef .tc main_v6) from B2_of_ne m ρ c main_v6 (by decide)]
  exact host_c1 m ρ c o d
theorem E2_c2 (c : Dev nD) (o d : Fin 1024) : (E2 m ρ c main_v9 : S1024x1024.Idx → EReal) (ix2 o d) = coef (sOf m c) o d 2 := by
  rw [show E2 m ρ c main_v9 = B1 m ρ c (Proc.devRef .tc main_v9) from B2_of_ne m ρ c main_v9 (by decide)]
  exact host_c2 m ρ c o d
theorem E2_bias (c : Dev nD) (o : Fin 1024) : (E2 m ρ c main_v13 : S1x1024.Idx → EReal) (ix2 0 o) = bias (sOf m c) o := by
  rw [show E2 m ρ c main_v13 = B1 m ρ c (Proc.devRef .tc main_v13) from B2_of_ne m ρ c main_v13 (by decide)]
  exact host_bias m ρ c o

/-- The guarded normalisation by the columns' own extrema is `normProd`. -/
theorem guardedNorm_extrema (x : XArr) : guardedNorm x (colMin x) (colMax x) = normProd x := rfl

/-- THE RESULT ARRAY after the run. -/
theorem result_eq (c : Dev nD) : (dat1 (E2 m ρ) c).arrAt 7 cfg1.N = result (normProd (xOf m c)) (sOf m c) := by
  rw [arr1_7 (E2 m ρ) c]
  funext i
  have h0 : (fun o d : Fin 1024 => (E2 m ρ c main_v3 : S1024x1024.Idx → EReal) (ix2 o d)) = fun o d => coef (sOf m c) o d 0 :=
    funext fun o => funext fun d => E2_c0 m ρ c o d
  have h1 : (fun o d : Fin 1024 => (E2 m ρ c main_v6 : S1024x1024.Idx → EReal) (ix2 o d)) = fun o d => coef (sOf m c) o d 1 :=
    funext fun o => funext fun d => E2_c1 m ρ c o d
  have h2 : (fun o d : Fin 1024 => (E2 m ρ c main_v9 : S1024x1024.Idx → EReal) (ix2 o d)) = fun o d => coef (sOf m c) o d 2 :=
    funext fun o => funext fun d => E2_c2 m ρ c o d
  have hb : (fun o : Fin 1024 => (E2 m ρ c main_v13 : S1x1024.Idx → EReal) (ix2 0 o)) = fun o => bias (sOf m c) o :=
    funext fun o => E2_bias m ρ c o
  have hlo : (fun d : Fin 1024 => (E2 m ρ c main_v14_0 : S1x1024.Idx → EReal) (ix2 0 d)) = colMin (xOf m c) := by
    rw [E2_min]; rfl
  have hhi : (fun d : Fin 1024 => (E2 m ρ c main_v14_1 : S1x1024.Idx → EReal) (ix2 0 d)) = colMax (xOf m c) := by
    rw [E2_max]; rfl
  show cubicOf (guardedNorm (E2 m ρ c main_arg0) (fun d : Fin 1024 => (E2 m ρ c main_v14_0 : S1x1024.Idx → EReal) (ix2 0 d))
        (fun d : Fin 1024 => (E2 m ρ c main_v14_1 : S1x1024.Idx → EReal) (ix2 0 d)))
      (fun o d : Fin 1024 => (E2 m ρ c main_v3 : S1024x1024.Idx → EReal) (ix2 o d))
      (fun o d : Fin 1024 => (E2 m ρ c main_v6 : S1024x1024.Idx → EReal) (ix2 o d))
      (fun o d : Fin 1024 => (E2 m ρ c main_v9 : S1024x1024.Idx → EReal) (ix2 o d))
      (fun o : Fin 1024 => (E2 m ρ c main_v13 : S1x1024.Idx → EReal) (ix2 0 o)) (i 0) (i 1) = _
  rw [h0, h1, h2, hb, hlo, hhi, E2_x]
  rfl

end Cert.KernelIdeal.Hand

end
-- ==== Proof.RefColumns.lean ====
/-
  The reference's column statistics and its normalised entries, read at an index.

  The reference reduces the 4096 × 1024 input over its rows twice — with a minimum body from `+∞` and with a maximum
  body from `-∞` — and so holds, at column `d`, the infimum and the supremum of that column over the 4096 rows.  Both
  row vectors are broadcast back over the rows, so at entry (b, d) the reference's quotient is
  `(x (b, d) - min_d) / (max_d - min_d)`: the specification's quotient-normalised entry.
-/
import proofs.«141445_j13228499272146_2_alg».proof.Proof.Gen.ReferenceIdeal.Read
import proofs.«141445_j13228499272146_2_alg».proof.Proof.Spec
import proofs.«141445_j13228499272146_2_alg».proof.Proof.LibColExtrema

noncomputable section

namespace Cert.RefValue

open Cert.ReferenceIdeal Cert.ReferenceIdeal.Gen Cert.ReferenceIdeal.Read Idealize.ShloMosaic Idealize.ShloMosaic.ValueIdx
open Cert.SplineSpec Cert.ColExtrema

/-- Dropping the row axis of a 4096 × 1024 array leaves its 1024 columns. -/
theorem rows_reduce : (⟨2, ![4096, 1024]⟩ : Shape).Reduces [0] (⟨1, ![1024]⟩ : Shape) := by decide

/-- The reference's minimum-reduce over the rows is, at column `d`, the least entry of that column. -/
theorem colMin_read (x : (⟨S4096x1024, .f32⟩ : BufTy).Contents (Elt Ideal)) (d : Fin 1024) :
    val_main_v0 (F := Ideal) x (ix1 d) = colMin x d := by
  unfold val_main_v0 colMin
  exact hostReduce_min_rows x _ reducesTo_S4096x1024_S1024_d0 rows_reduce h_S_
    ((val_main_cst_apply (F := Ideal) _).trans ofBits_pos_inf) d

/-- The reference's maximum-reduce over the rows is, at column `d`, the greatest entry of that column. -/
theorem colMax_read (x : (⟨S4096x1024, .f32⟩ : BufTy).Contents (Elt Ideal)) (d : Fin 1024) :
    val_main_v2 (F := Ideal) x (ix1 d) = colMax x d := by
  unfold val_main_v2 colMax
  exact hostReduce_max_rows x _ reducesTo_S4096x1024_S1024_d0 rows_reduce h_S_
    ((val_main_cst_0_apply (F := Ideal) _).trans ofBits_neg_inf) d

/-- The reference's quotient at entry (b, d) is the quotient-normalised entry of the specification. -/
theorem normQuot_read (x : (⟨S4096x1024, .f32⟩ : BufTy).Contents (Elt Ideal)) (b : Fin 4096) (d : Fin 1024) :
    val_main_v8 (F := Ideal) x (ix2 b d) = normQuot x b d := by
  have e1 : idx_main_v1 (idx_main_v4 (ix2 b d)) = ix1 d := funext fun a => Fin.ext (by match a with | ⟨0, _⟩ => rfl)
  have e3 : idx_main_v3 (idx_main_v7 (ix2 b d)) = ix1 d := funext fun a => Fin.ext (by match a with | ⟨0, _⟩ => rfl)
  rw [val_main_v8_apply, val_main_v5_apply, val_main_v7_apply, val_main_v6_apply, val_main_v4_apply, val_main_v1_apply,
    val_main_v3_apply, e1, e3, colMin_read, colMax_read]
  rfl

end Cert.RefValue

end
-- ==== Proof.RefValue.lean ====
/-
  The reference program's result, read index by index, is the cubic of the quotient-normalised columns.

  At entry (b, o) the reference adds three contractions over the column index `d` — of the cubes, the squares and the
  first powers of the normalised entries `u b d = (x (b, d) - min_d) / (max_d - min_d)` against the coefficient
  matrices `coef · · 0`, `coef · · 1`, `coef · · 2` at row `o` — and the constant term `bias o`, in exactly the
  grouping `((∑ u³c₀ + ∑ u²c₁) + ∑ u c₂) + bias` of the specification; each contraction pairs entry (b, d) of the left
  operand with entry (o, d) of the right one.
-/
import proofs.«141445_j13228499272146_2_alg».proof.Proof.RefColumns
import proofs.«141445_j13228499272146_2_alg».proof.Proof.RefCoef

noncomputable section

namespace Cert.RefValue

open Cert.ReferenceIdeal Cert.ReferenceIdeal.Gen Cert.ReferenceIdeal.Read Idealize.ShloMosaic Idealize.ShloMosaic.ValueIdx
open Cert.SplineSpec

/-- The contraction of the cubes against the first coefficient matrix, at (b, o). -/
theorem cubeTerm_read (x : (⟨S4096x1024, .f32⟩ : BufTy).Contents (Elt Ideal))
    (s : (⟨S1024x1024x4x4, .f32⟩ : BufTy).Contents (Elt Ideal)) (b : Fin 4096) (o : Fin 1024) :
    val_main_v14 (F := Ideal) x s (ix2 b o)
      = ∑ d : Fin 1024, (normQuot x b d * normQuot x b d * normQuot x b d) * coef s o d 0 := by
  have el : ∀ k : Fin 1024, lidx_main_v14 (ix2 b o) k = ix2 b k := fun k =>
    funext fun a => Fin.ext (by match a with | ⟨0, _⟩ => rfl | ⟨1, _⟩ => rfl)
  have er : ∀ k : Fin 1024, ridx_main_v14 (ix2 b o) k = ix2 o k := fun k =>
    funext fun a => Fin.ext (by match a with | ⟨0, _⟩ => rfl | ⟨1, _⟩ => rfl)
  rw [val_main_v14_apply]
  refine Finset.sum_congr rfl fun k _ => ?_
  rw [el k, er k, val_main_v11_apply, val_main_v10_apply, normQuot_read, coef0_read]
  rfl

/-- The contraction of the squares against the second coefficient matrix, at (b, o). -/
theorem squareTerm_read (x : (⟨S4096x1024, .f32⟩ : BufTy).Contents (Elt Ideal))
    (s : (⟨S1024x1024x4x4, .f32⟩ : BufTy).Contents (Elt Ideal)) (b : Fin 4096) (o : Fin 1024) :
    val_main_v17 (F := Ideal) x s (ix2 b o)
      = ∑ d : Fin 1024, (normQuot x b d * normQuot x b d) * coef s o d 1 := by
  have el : ∀ k : Fin 1024, lidx_main_v17 (ix2 b o) k = ix2 b k := fun k =>
    funext fun a => Fin.ext (by match a with | ⟨0, _⟩ => rfl | ⟨1, _⟩ => rfl)
  have er : ∀ k : Fin 1024, ridx_main_v17 (ix2 b o) k = ix2 o k := fun k =>
    funext fun a => Fin.ext (by match a with | ⟨0, _⟩ => rfl | ⟨1, _⟩ => rfl)
  rw [val_main_v17_apply]
  refine Finset.sum_congr rfl fun k _ => ?_
  rw [el k, er k, val_main_v10_apply, normQuot_read, coef1_read]
  rfl

/-- The contraction of the normalised entries against the third coefficient matrix, at (b, o). -/
theorem linearTerm_read (x : (⟨S4096x1024, .f32⟩ : BufTy).Contents (Elt Ideal))
    (s : (⟨S1024x1024x4x4, .f32⟩ : BufTy).Contents (Elt Ideal)) (b : Fin 4096) (o : Fin 1024) :
    val_main_v21 (F := Ideal) x s (ix2 b o) = ∑ d : Fin 1024, normQuot x b d * coef s o d 2 := by
  have el : ∀ k : Fin 1024, lidx_main_v21 (ix2 b o) k = ix2 b k := fun k =>
    funext fun a => Fin.ext (by match a with | ⟨0, _⟩ => rfl | ⟨1, _⟩ => rfl)
  have er : ∀ k : Fin 1024, ridx_main_v21 (ix2 b o) k = ix2 o k := fun k =>
    funext fun a => Fin.ext (by match a with | ⟨0, _⟩ => rfl | ⟨1, _⟩ => rfl)
  rw [val_main_v21_apply]
  refine Finset.sum_congr rfl fun k _ => ?_
  rw [el k, er k, normQuot_read, coef2_read]

/-- The constant term broadcast over the rows, at (b, o). -/
theorem biasTerm_read (s : (⟨S1024x1024x4x4, .f32⟩ : BufTy).Contents (Elt Ideal)) (b : Fin 4096) (o : Fin 1024) :
    val_main_v27 (F := Ideal) s (ix2 b o) = bias s o := by
  have e : idx_main_v26 (idx_main_v27 (ix2 b o)) = ix1 o := funext fun a => Fin.ext (by match a with | ⟨0, _⟩ => rfl)
  rw [val_main_v27_apply, val_main_v26_apply, e, bias_read]

/-- The reference's result array is the cubic of the quotient-normalised columns. -/
theorem reference_is_result (x : (⟨S4096x1024, .f32⟩ : BufTy).Contents (Elt Ideal))
    (s : (⟨S1024x1024x4x4, .f32⟩ : BufTy).Contents (Elt Ideal)) :
    val_main_v28 (F := Ideal) x s = result (normQuot x) s := by
  funext i
  obtain ⟨b, o, rfl⟩ : ∃ (b : Fin 4096) (o : Fin 1024), i = ix2 b o := ⟨i 0, i 1, eq_ix2 i⟩
  rw [val_main_v28_apply, val_main_v22_apply, val_main_v18_apply, cubeTerm_read, squareTerm_read, linearTerm_read,
    biasTerm_read]
  rfl

end Cert.RefValue

end
-- ==== Proof.NormAgree.lean ====
/-
  The two spellings of the column normalisation agree wherever the column's range is not zero.

  Dividing by a nonzero extended real `δ` is, by definition of the quotient, multiplying by `δ⁻¹`; and the guarded
  reciprocal of a nonzero `δ` is `1 / δ = 1 · δ⁻¹ = δ⁻¹`.  So `(x - min) · (1 / δ) = (x - min) / δ` entry by entry,
  and the two cubics built on the two normalisations are one array when every column's range is nonzero.
-/
import proofs.«141445_j13228499272146_2_alg».proof.Proof.Spec

noncomputable section

namespace Cert.RefValue

open Idealize.ShloMosaic Cert.SplineSpec

/-- The quotient by a nonzero `δ` is the product with `δ⁻¹`. -/
theorem div_of_ne_zero (a δ : EReal) (h : δ ≠ 0) : Ideal.div a δ = a * δ⁻¹ := by
  rw [Ideal.div, if_neg h]

/-- At a column whose range is not zero, the product with the guarded reciprocal is the quotient. -/
theorem normProd_eq_normQuot (x : XArr) (b : Fin 4096) (d : Fin 1024) (h : colRange x d ≠ 0) :
    normProd x b d = normQuot x b d := by
  unfold normProd normQuot
  rw [if_neg h, div_of_ne_zero _ _ h, div_of_ne_zero _ _ h, one_mul]

/-- When every column's range is nonzero the two normalisations are one function … -/
theorem normProd_eq_normQuot_fun (x : XArr) (h : ∀ d, colRange x d ≠ 0) : normProd x = normQuot x :=
  funext fun b => funext fun d => normProd_eq_normQuot x b d (h d)

/-- … and so are the two results. -/
theorem result_normProd_eq (x : XArr) (s : CArr) (h : ∀ d, colRange x d ≠ 0) :
    result (normProd x) s = result (normQuot x) s := by
  rw [normProd_eq_normQuot_fun x h]

end Cert.RefValue

end
-- ==== Proof.PreRange.lean ====
/-
  What the precondition says of the columns: no column is constant, so no column's range is zero.

  The precondition's last conjunct is `all (max over the rows ≠ min over the rows)`, column by column: an `and`-reduce
  that answers 1 had a 1 at every column, the comparison "not equal" answers 1 only on different operands, and the
  two row reductions are the column's supremum and infimum.  So every column has `max ≠ min`, and the difference of two
  different extended reals is never zero.  (The other two conjuncts — every entry of both arrays is finite — are not
  needed for this.)
-/
import proofs.«141445_j13228499272146_2_alg».proof.Pre_finite_inputs
import proofs.«141445_j13228499272146_2_alg».proof.Proof.Spec
import proofs.«141445_j13228499272146_2_alg».proof.Proof.LibColExtrema
import Idealize.ShloMosaic.Lib.ReduceAll

noncomputable section

namespace Cert.RefValue

open Idealize.ShloMosaic Idealize.ShloMosaic.ValueIdx Cert.SplineSpec Cert.ColExtrema
open Cert.Pre_finite_inputs (Facts S_ S1024 S4096x1024 S1024x1024x4x4)

/-- The scalar shape has one index. -/
local instance : Subsingleton S_.Idx := ⟨fun a b => funext fun d => d.elim0⟩

/-- Under the precondition every column's greatest entry differs from its least. -/
theorem colMax_ne_colMin_of_pre [Facts] (x : XArr) (s : CArr)
    (h : Cert.Pre_finite_inputs.fn (F := Ideal) x s = fun _ => 1#1) (d : Fin 1024) : colMax x d ≠ colMin x d := by
  have hmax : Host.reduce FloatOps.maximumf x (constant (F := Ideal) S_ .f32 0xFF800000#32)
      Facts.reducesTo_S4096x1024_S1024_d0 Facts.h_S_ (ix1 d) = colMax x d :=
    hostReduce_max_rows x _ _ (rows_reduces 4096 1024) _ ofBits_neg_inf d
  have hmin : Host.reduce FloatOps.minimumf x (constant (F := Ideal) S_ .f32 0x7F800000#32)
      Facts.reducesTo_S4096x1024_S1024_d0 Facts.h_S_ (ix1 d) = colMin x d :=
    hostReduce_min_rows x _ _ (rows_reduces 4096 1024) _ ofBits_pos_inf d
  have h0 := congrFun h ix0
  dsimp only [Cert.Pre_finite_inputs.fn] at h0
  have h12 := (IntOp.andi_eq_one.1 h0).2
  have hd := Host.reduce_andi_all _ _ _ _ ix0 h12 (ix1 d)
  rw [cmpf_apply, hmax, hmin] at hd
  exact (cmp_une_eq_one _ _).1 hd

/-- Under the precondition no column's range is zero. -/
theorem range_ne_zero_of_pre [Facts] (x : XArr) (s : CArr)
    (h : Cert.Pre_finite_inputs.fn (F := Ideal) x s = fun _ => 1#1) (d : Fin 1024) : colRange x d ≠ 0 :=
  sub_ne_zero_of_ne _ _ (colMax_ne_colMin_of_pre x s h d)

end Cert.RefValue

end
-- ==== Proof.RefBridge.lean ====
/-
  Under the precondition the reference's result is also the cubic of the PRODUCT-normalised columns.

  The reference computes the cubic of the quotients `(x - min) / (max - min)`; the precondition keeps every column's
  range away from zero; and off a zero range the quotient is the product with the guarded reciprocal.  So the
  reference's result array is the specification's result at either spelling of the normalisation.
-/
import proofs.«141445_j13228499272146_2_alg».proof.Proof.RefValue
import proofs.«141445_j13228499272146_2_alg».proof.Proof.NormAgree
import proofs.«141445_j13228499272146_2_alg».proof.Proof.PreRange

noncomputable section

namespace Cert.RefValue

open Idealize.ShloMosaic Cert.SplineSpec

/-- Under the precondition, the reference's result is the cubic of the product-normalised columns. -/
theorem reference_is_result_normProd [Cert.Pre_finite_inputs.Facts] (x : XArr) (s : CArr)
    (h : Cert.Pre_finite_inputs.fn (F := Ideal) x s = fun _ => 1#1) :
    Cert.ReferenceIdeal.Read.val_main_v28 (F := Ideal) x s = result (normProd x) s := by
  rw [result_normProd_eq x s (range_ne_zero_of_pre x s h)]
  exact reference_is_result x s

end Cert.RefValue

end
-- ==== Proof.lean ====
/-
  The certificate of the normalised cubic-spline layer.

  THE MATHEMATICS.  The input `x` is 4096 × 1024, the coefficients `s` are 1024 × 1024 × 4 × 4.  Each column `d` of `x`
  is normalised by its own minimum and maximum over the rows, `u = (x - min) / (max - min)`; the four spline points of
  every coefficient are summed; and the result is `((∑ u³ c₀ + ∑ u² c₁) + ∑ u c₂) + ∑ c₃`, the sums over the 1024 input
  features.  The kernel computes the column minima and maxima tile by tile (eight tiles of 512 rows, keeping a running
  row), multiplies by a GUARDED reciprocal of the range (`0` where the range is `0`) instead of dividing, and forms the
  three sums as matrix products; the reference divides and contracts on the host.  At the ideal instance the two agree
  at every input none of whose columns is constant — the precondition says so —, because dividing by a nonzero range
  IS multiplying by its reciprocal, a running minimum over tiles is the minimum, and a matrix product into a zero
  accumulator is the host's contraction.

  THE FRAMES.  @main is a stretch of host operations and two kernel regions; each region's body is run at every grid
  point from what the pipeline hands it to what the pipeline takes back (for the min/max region in two cases: the first
  row tile of a half of the columns, and a later one), and the three segments compose.  The same text proves the frame
  of the program as printed and of its idealization, which differ in no operation.
-/
import proofs.«141445_j13228499272146_2_alg».proof.Defs
import proofs.«141445_j13228499272146_2_alg».proof.Proof.Gen.Kernel
import proofs.«141445_j13228499272146_2_alg».proof.Proof.Gen.KernelIdeal
import proofs.«141445_j13228499272146_2_alg».proof.Proof.Gen.ReferenceIdeal
import proofs.«141445_j13228499272146_2_alg».proof.Proof.Gen.Pre_finite_inputs
import proofs.«141445_j13228499272146_2_alg».proof.Proof.Gen.ReferenceIdeal.Run
import proofs.«141445_j13228499272146_2_alg».proof.Proof.Gen.ReferenceIdeal.Read
import proofs.«141445_j13228499272146_2_alg».proof.Proof.BitsRun
import proofs.«141445_j13228499272146_2_alg».proof.Proof.Run
import proofs.«141445_j13228499272146_2_alg».proof.Proof.KernelValue
import proofs.«141445_j13228499272146_2_alg».proof.Proof.RefBridge

noncomputable section

namespace Cert.Proof

open Idealize.ShloMosaic Idealize.ShloMosaic.TcCoe Idealize.SL.Sem

/-- The program as printed runs to the end, faults nowhere, and leaves both arguments as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the cubic of the columns normalised by the product with the guarded
    reciprocal of the range: the kernel by what its two regions compute, the reference — whose quotient is that
    product wherever the range is not zero — under the precondition that no column is constant. -/
theorem algebraic : Cert.algebraic_KernelIdeal_ReferenceIdeal := by
  intro m ρ m' ρ' hpre hagree
  refine ⟨fun c => Cert.SplineSpec.result
      (Cert.SplineSpec.normProd (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2]
    exact Cert.RefValue.reference_is_result_normProd _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
